-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v61) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v81) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S40 .f32) (main_v13 : IVec S_ 1) (main_v16 : IVec S128x40 1) : IVec S_ 1 :=
  let main_c_5 : IVec S_ 1 := constantI S_ 1 1#1
  let main_v17 : IVec S_ 1 := (fun x v => Host.reduce IntOp.andi x v reducesTo_S128x40_S_d0_1 h_S_) main_v16 main_c_5
  let main_v18 : IVec S_ 1 := andi main_v13 main_v17
  let main_v19 : FVec F S40 .f32 := Host.absf main_arg5
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S50000x128 .f32) (main_arg1 : IVec S2x800000 32) (main_arg2 : FVec F S128x128 .f32) (main_arg3 : FVec F S128 .f32) (main_arg4 : FVec F S128x40 .f32) (main_arg5 : FVec F S40 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x40 .f32 := Host.absf main_arg4
  let main_cst_4 : FVec F S_ .f32 := constant S_ .f32 0x7F800000#32
  let main_v15 : FVec F S128x40 .f32 := broadcastInDim S128x40 ![] bcast_S_S128x40 main_cst_4
  let main_v16 : IVec S128x40 1 := cmpf .olt main_v14 main_v15
  fn_part1 (F := F) main_arg5 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S5000x128 : Shape := ⟨2, ![5000, 128]⟩
abbrev S850000x128 : Shape := ⟨2, ![850000, 128]⟩
abbrev S1x128 : Shape := ⟨2, ![1, 128]⟩
abbrev S50000x40 : Shape := ⟨2, ![50000, 40]⟩
abbrev S5000x40 : Shape := ⟨2, ![5000, 40]⟩
abbrev S850000x40 : Shape := ⟨2, ![850000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 84
  | .vmem => 20
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S_, .i32⟩
  | .hbm, ⟨28, _⟩ => ⟨S850000, .i32⟩
  | .hbm, ⟨29, _⟩ => ⟨S850000, .i1⟩
  | .hbm, ⟨30, _⟩ => ⟨S_, .i32⟩
  | .hbm, ⟨31, _⟩ => ⟨S850000, .i32⟩
  | .hbm, ⟨32, _⟩ => ⟨S850000, .i32⟩
  | .hbm, ⟨33, _⟩ => ⟨S850000, .i32⟩
  | .hbm, ⟨34, _⟩ => ⟨S850000x1, .i32⟩
  | .hbm, ⟨35, _⟩ => ⟨S850000, .f32⟩
  | .hbm, ⟨36, _⟩ => ⟨S_, .i32⟩
  | .hbm, ⟨37, _⟩ => ⟨S850000, .i32⟩
  | .hbm, ⟨38, _⟩ => ⟨S850000, .i1⟩
  | .hbm, ⟨39, _⟩ => ⟨S_, .i32⟩
  | .hbm, ⟨40, _⟩ => ⟨S850000, .i32⟩
  | .hbm, ⟨41, _⟩ => ⟨S850000, .i32⟩
  | .hbm, ⟨42, _⟩ => ⟨S850000, .i32⟩
  | .hbm, ⟨43, _⟩ => ⟨S850000x1, .i32⟩
  | .hbm, ⟨44, _⟩ => ⟨S850000, .f32⟩
  | .hbm, ⟨45, _⟩ => ⟨S850000, .f32⟩
  | .hbm, ⟨46, _⟩ => ⟨S50000x128, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x40, .f32⟩
  | .hbm, ⟨66, _⟩ => ⟨S_, .i32⟩
  | .hbm, ⟨67, _⟩ => ⟨S850000, .i32⟩
  | .hbm, ⟨68, _⟩ => ⟨S850000, .i1⟩
  | .hbm, ⟨69, _⟩ => ⟨S_, .i32⟩
  | .hbm, ⟨70, _⟩ => ⟨S850000, .i32⟩
  | .hbm, ⟨71, _⟩ => ⟨S850000, .i32⟩
  | .hbm, ⟨72, _⟩ => ⟨S850000, .i32⟩
  | .hbm, ⟨73, _⟩ => ⟨S850000x1, .i32⟩
  | .hbm, ⟨74, _⟩ => ⟨S850000x40, .f32⟩
  | .hbm, ⟨75, _⟩ => ⟨S850000x1, .f32⟩
  | .hbm, ⟨76, _⟩ => ⟨S850000x40, .f32⟩
  | .hbm, ⟨77, _⟩ => ⟨S850000x40, .f32⟩
  | .hbm, ⟨78, _⟩ => ⟨S_, .f32⟩
  | .hbm, ⟨79, _⟩ => ⟨S50000x40, .f32⟩
  | .hbm, ⟨80, _⟩ => ⟨S850000x1, .i32⟩
  | .hbm, ⟨81, _⟩ => ⟨S50000x40, .f32⟩
  | .hbm, ⟨82, _⟩ => ⟨S1x40, .f32⟩
  | .hbm, ⟨83, _⟩ => ⟨S50000x40, .f32⟩
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x40, .f32⟩
  | .local _ .vmem, ⟨13, _⟩ => ⟨S5000x40, .f32⟩
  | .local _ .vmem, ⟨14, _⟩ => ⟨S5000x40, .f32⟩
  | .local _ .vmem, ⟨15, _⟩ => ⟨S5000x40, .f32⟩
  | .local _ .vmem, ⟨16, _⟩ => ⟨S5000x40, .f32⟩
  | .local _ .vmem, ⟨17, _⟩ => ⟨S1x40, .f32⟩
  | .local _ .vmem, ⟨18, _⟩ => ⟨S5000x40, .f32⟩
  | .local _ .vmem, ⟨19, _⟩ => ⟨S5000x40, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_cst_11 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x40 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x40 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x40 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  inb_S5000x128_S5000x128_0_0 : ∀ a, (![0, 0] : Fin 2 → Nat) a + S5000x128.size a ≤ S5000x128.size a
  h_S5000x128 : 0 < S5000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S5000x128_S128x128_S5000x128_1_0_0_1_n_n_wf : DotDims.WF S5000x128 S128x128 S5000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S5000x128_S128x40_S5000x40_1_0_0_1_n_n_wf : DotDims.WF S5000x128 S128x40 S5000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S50000x40.size a
  hwx2_2 : ∀ i : grid2.Coords, EltTy.bits .f32 = 32 ∨ (Rect.block (s := S50000x40) S5000x40.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x40.size a ≤ S50000x40.size a
  hwx3_0 : ∀ i : grid3.Coords, EltTy.bits .f32 = 32 ∨ (Rect.block (s := S50000x40) S5000x40.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x40.size a ≤ S1x40.size a
  hwx3_1 : ∀ i : grid3.Coords, EltTy.bits .f32 = 32 ∨ (Rect.block (s := S1x40) S1x40.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x40.size a ≤ S50000x40.size a
  hwx3_2 : ∀ i : grid3.Coords, EltTy.bits .f32 = 32 ∨ (Rect.block (s := S50000x40) S5000x40.size (cc3_transform_2 i) (hinb3_2 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x40.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x40.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x40.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S128x40 : Shape := ⟨2, ![128, 40]⟩
abbrev S40 : Shape := ⟨1, ![40]⟩
abbrev S50000 : Shape := ⟨1, ![50000]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x40 : Shape := ⟨2, ![50000, 40]⟩
abbrev S850000x40 : Shape := ⟨2, ![850000, 40]⟩
abbrev S1x40 : Shape := ⟨2, ![1, 40]⟩
abbrev S50000x1 : Shape := ⟨2, ![50000, 1]⟩

abbrev nBuf : Space → Nat
  | .hbm => 126
  | .vmem => 0
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x40, .f32⟩
  | .hbm, ⟨5, _⟩ => ⟨S40, .f32⟩
  | .hbm, ⟨6, _⟩ => ⟨S50000, .i32⟩
  | .hbm, ⟨7, _⟩ => ⟨S1x800000, .i32⟩
  | .hbm, ⟨8, _⟩ => ⟨S800000, .i32⟩
  | .hbm, ⟨9, _⟩ => ⟨S850000, .i32⟩
  | .hbm, ⟨10, _⟩ => ⟨S1x800000, .i32⟩
  | .hbm, ⟨11, _⟩ => ⟨S800000, .i32⟩
  | .hbm, ⟨12, _⟩ => ⟨S850000, .i32⟩
  | .hbm, ⟨13, _⟩ => ⟨S_, .f32⟩
  | .hbm, ⟨14, _⟩ => ⟨S850000, .f32⟩
  | .hbm, ⟨15, _⟩ => ⟨S_, .f32⟩
  | .hbm, ⟨16, _⟩ => ⟨S50000, .f32⟩
  | .hbm, ⟨17, _⟩ => ⟨S850000x1, .i32⟩
  | .hbm, ⟨18, _⟩ => ⟨S50000, .f32⟩
  | .hbm, ⟨19, _⟩ => ⟨S_, .f32⟩
  | .hbm, ⟨20, _⟩ => ⟨S50000, .f32⟩
  | .hbm, ⟨21, _⟩ => ⟨S50000, .i1⟩
  | .hbm, ⟨22, _⟩ => ⟨S50000, .f32⟩
  | .hbm, ⟨23, _⟩ => ⟨S_, .f32⟩
  | .hbm, ⟨24, _⟩ => ⟨S_, .f32⟩
  | .hbm, ⟨25, _⟩ => ⟨S50000, .f32⟩
  | .hbm, ⟨26, _⟩ => ⟨S50000, .f32⟩
  | .hbm, ⟨27, _⟩ => ⟨S50000x128, .f32⟩
  | .hbm, ⟨28, _⟩ => ⟨S_, .i32⟩
  | .hbm, ⟨29, _⟩ => ⟨S850000, .i32⟩
  | .hbm, ⟨30, _⟩ => ⟨S850000, .i1⟩
  | .hbm, ⟨31, _⟩ => ⟨S_, .i32⟩
  | .hbm, ⟨32, _⟩ => ⟨S850000, .i32⟩
  | .hbm, ⟨33, _⟩ => ⟨S850000, .i32⟩
  | .hbm, ⟨34, _⟩ => ⟨S850000, .i32⟩
  | .hbm, ⟨35, _⟩ => ⟨S850000x1, .i32⟩
  | .hbm, ⟨36, _⟩ => ⟨S850000, .f32⟩
  | .hbm, ⟨37, _⟩ => ⟨S_, .i32⟩
  | .hbm, ⟨38, _⟩ => ⟨S850000, .i32⟩
  | .hbm, ⟨39, _⟩ => ⟨S850000, .i1⟩
  | .hbm, ⟨40, _⟩ => ⟨S_, .i32⟩
  | .hbm, ⟨41, _⟩ => ⟨S850000, .i32⟩
  | .hbm, ⟨42, _⟩ => ⟨S850000, .i32⟩
  | .hbm, ⟨43, _⟩ => ⟨S850000, .i32⟩
  | .hbm, ⟨44, _⟩ => ⟨S850000x1, .i32⟩
  | .hbm, ⟨45, _⟩ => ⟨S850000, .f32⟩
  | .hbm, ⟨46, _⟩ => ⟨S850000, .f32⟩
  | .hbm, ⟨47, _⟩ => ⟨S_, .i32⟩
  | .hbm, ⟨48, _⟩ => ⟨S850000, .i32⟩
  | .hbm, ⟨49, _⟩ => ⟨S850000, .i1⟩
  | .hbm, ⟨50, _⟩ => ⟨S_, .i32⟩
  | .hbm, ⟨51, _⟩ => ⟨S850000, .i32⟩
  | .hbm, ⟨52, _⟩ => ⟨S850000, .i32⟩
  | .hbm, ⟨53, _⟩ => ⟨S850000, .i32⟩
  | .hbm, ⟨54, _⟩ => ⟨S850000x1, .i32⟩
  | .hbm, ⟨55, _⟩ => ⟨S850000x128, .f32⟩
  | .hbm, ⟨56, _⟩ => ⟨S850000x1, .f32⟩
  | .hbm, ⟨57, _⟩ => ⟨S850000x128, .f32⟩
  | .hbm, ⟨58, _⟩ => ⟨S850000x128, .f32⟩
  | .hbm, ⟨59, _⟩ => ⟨S_, .f32⟩
  | .hbm, ⟨60, _⟩ => ⟨S50000x128, .f32⟩
  | .hbm, ⟨61, _⟩ => ⟨S850000x1, .i32⟩
  | .hbm, ⟨62, _⟩ => ⟨S50000x128, .f32⟩
  | .hbm, ⟨63, _⟩ => ⟨S1x128, .f32⟩
  | .hbm, ⟨64, _⟩ => ⟨S50000x128, .f32⟩
  | .hbm, ⟨65, _⟩ => ⟨S50000x128, .f32⟩
  | .hbm, ⟨66, _⟩ => ⟨S_, .f32⟩
  | .hbm, ⟨67, _⟩ => ⟨S50000x128, .f32⟩
  | .hbm, ⟨68, _⟩ => ⟨S50000x128, .f32⟩
  | .hbm, ⟨69, _⟩ => ⟨S50000x40, .f32⟩
  | .hbm, ⟨70, _⟩ => ⟨S_, .i32⟩
  | .hbm, ⟨71, _⟩ => ⟨S850000, .i32⟩
  | .hbm, ⟨72, _⟩ => ⟨S850000, .i1⟩
  | .hbm, ⟨73, _⟩ => ⟨S_, .i32⟩
  | .hbm, ⟨74, _⟩ => ⟨S850000, .i32⟩
  | .hbm, ⟨75, _⟩ => ⟨S850000, .i32⟩
  | .hbm, ⟨76, _⟩ => ⟨S850000, .i32⟩
  | .hbm, ⟨77, _⟩ => ⟨S850000x1, .i32⟩
  | .hbm, ⟨78, _⟩ => ⟨S850000, .f32⟩
  | .hbm, ⟨79, _⟩ => ⟨S_, .i32⟩
  | .hbm, ⟨80, _⟩ => ⟨S850000, .i32⟩
  | .hbm, ⟨81, _⟩ => ⟨S850000, .i1⟩
  | .hbm, ⟨82, _⟩ => ⟨S_, .i32⟩
  | .hbm, ⟨83, _⟩ => ⟨S850000, .i32⟩
  | .hbm, ⟨84, _⟩ => ⟨S850000, .i32⟩
  | .hbm, ⟨85, _⟩ => ⟨S850000, .i32⟩
  | .hbm, ⟨86, _⟩ => ⟨S850000x1, .i32⟩
  | .hbm, ⟨87, _⟩ => ⟨S850000, .f32⟩
  | .hbm, ⟨88, _⟩ => ⟨S850000, .f32⟩
  | .hbm, ⟨89, _⟩ => ⟨S_, .i32⟩
  | .hbm, ⟨90, _⟩ => ⟨S850000, .i32⟩
  | .hbm, ⟨91, _⟩ => ⟨S850000, .i1⟩
  | .hbm, ⟨92, _⟩ => ⟨S_, .i32⟩
  | .hbm, ⟨93, _⟩ => ⟨S850000, .i32⟩
  | .hbm, ⟨94, _⟩ => ⟨S850000, .i32⟩
  | .hbm, ⟨95, _⟩ => ⟨S850000, .i32⟩
  | .hbm, ⟨96, _⟩ => ⟨S850000x1, .i32⟩
  | .hbm, ⟨97, _⟩ => ⟨S850000x40, .f32⟩
  | .hbm, ⟨98, _⟩ => ⟨S850000x1, .f32⟩
  | .hbm, ⟨99, _⟩ => ⟨S850000x40, .f32⟩
  | .hbm, ⟨100, _⟩ => ⟨S850000x40, .f32⟩
  | .hbm, ⟨101, _⟩ => ⟨S_, .f32⟩
  | .hbm, ⟨102, _⟩ => ⟨S50000x40, .f32⟩
  | .hbm, ⟨103, _⟩ => ⟨S850000x1, .i32⟩
  | .hbm, ⟨104, _⟩ => ⟨S50000x40, .f32⟩
  | .hbm, ⟨105, _⟩ => ⟨S1x40, .f32⟩
  | .hbm, ⟨106, _⟩ => ⟨S50000x40, .f32⟩
  | .hbm, ⟨107, _⟩ => ⟨S50000x40, .f32⟩
  | .hbm, ⟨108, _⟩ => ⟨S_, .f32⟩
  | .hbm, ⟨109, _⟩ => ⟨S50000x40, .f32⟩
  | .hbm, ⟨110, _⟩ => ⟨S50000x40, .f32⟩
  | .hbm, ⟨111, _⟩ => ⟨S_, .f32⟩
  | .hbm, ⟨112, _⟩ => ⟨S50000, .f32⟩
  | .hbm, ⟨113, _⟩ => ⟨S_, .f32⟩
  | .hbm, ⟨114, _⟩ => ⟨S50000, .f32⟩
  | .hbm, ⟨115, _⟩ => ⟨S50000, .f32⟩
  | .hbm, ⟨116, _⟩ => ⟨S50000x1, .f32⟩
  | .hbm, ⟨117, _⟩ => ⟨S50000x40, .f32⟩
  | .hbm, ⟨118, _⟩ => ⟨S50000x40, .f32⟩
  | .hbm, ⟨119, _⟩ => ⟨S50000x40, .f32⟩
  | .hbm, ⟨120, _⟩ => ⟨S_, .f32⟩
  | .hbm, ⟨121, _⟩ => ⟨S50000, .f32⟩
  | .hbm, ⟨122, _⟩ => ⟨S50000x1, .f32⟩
  | .hbm, ⟨123, _⟩ => ⟨S50000x1, .f32⟩
  | .hbm, ⟨124, _⟩ => ⟨S50000x40, .f32⟩
  | .hbm, ⟨125, _⟩ => ⟨S50000x40, .f32⟩
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_11 : Ref sig .tc := ⟨.hbm, 79, rfl⟩
abbrev main_v56 : Ref sig .tc := ⟨.hbm, 80, rfl⟩
abbrev main_v57 : Ref sig .tc := ⟨.hbm, 81, rfl⟩
abbrev main_c_12 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_c_13 : Ref sig .tc := ⟨.hbm, 89, rfl⟩
abbrev main_v64 : Ref sig .tc := ⟨.hbm, 90, rfl⟩
abbrev main_v65 : Ref sig .tc := ⟨.hbm, 91, rfl⟩
abbrev main_c_14 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_cst_15 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_call2_cst : Ref sig .tc := ⟨.hbm, 108, rfl⟩
abbrev main_call2_v0 : Ref sig .tc := ⟨.hbm, 109, rfl⟩
abbrev main_v80 : Ref sig .tc := ⟨.hbm, 110, rfl⟩
abbrev main_call3_cst : Ref sig .tc := ⟨.hbm, 111, rfl⟩
abbrev main_call3_v0 : Ref sig .tc := ⟨.hbm, 112, rfl⟩
abbrev main_call3_cst_0 : Ref sig .tc := ⟨.hbm, 113, rfl⟩
abbrev main_call3_v1 : Ref sig .tc := ⟨.hbm, 114, rfl⟩
abbrev main_call3_v2 : Ref sig .tc := ⟨.hbm, 115, rfl⟩
abbrev main_call3_v3 : Ref sig .tc := ⟨.hbm, 116, rfl⟩
abbrev main_call3_v4 : Ref sig .tc := ⟨.hbm, 117, rfl⟩
abbrev main_call3_v5 : Ref sig .tc := ⟨.hbm, 118, rfl⟩
abbrev main_call3_v6 : Ref sig .tc := ⟨.hbm, 119, rfl⟩
abbrev main_call3_cst_1 : Ref sig .tc := ⟨.hbm, 120, rfl⟩
abbrev main_call3_v7 : Ref sig .tc := ⟨.hbm, 121, rfl⟩
abbrev main_call3_v8 : Ref sig .tc := ⟨.hbm, 122, rfl⟩
abbrev main_call3_v9 : Ref sig .tc := ⟨.hbm, 123, rfl⟩
abbrev main_call3_v10 : Ref sig .tc := ⟨.hbm, 124, rfl⟩
abbrev main_v81 : Ref sig .tc := ⟨.hbm, 125, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x40_0_1 : S850000x1.BroadcastsInDim S850000x40 (![0, 1] : Fin 2 → Fin S850000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S850000x1_S850000_n_0_0_1_wf : ScatterDims.WF S50000 S850000x1 S850000 [] [0] [0] 1
  dot_S50000x128_S128x128_S50000x128_1_0_0_1_n_n_wf : DotDims.WF S50000x128 S128x128 S50000x128 [1] [0] [0] [1] [] []
  gather_S50000_S850000x1_S850000_n_0_n_n_0_1_1_wf : GatherDims.WF S50000 S850000x1 S850000 [] [0] [] [0] [] 1 ![1]
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x40_S50000x40_1_0_0_1_n_n_wf : DotDims.WF S50000x128 S128x40 S50000x40 [1] [0] [0] [1] [] []
  gather_S50000x40_S850000x1_S850000x40_1_0_n_n_0_1_140_wf : GatherDims.WF S50000x40 S850000x1 S850000x40 [1] [0] [] [0] [] 1 ![1, 40]
  scatter_S50000x40_S850000x1_S850000x40_1_0_0_1_wf : ScatterDims.WF S50000x40 S850000x1 S850000x40 [1] [0] [0] 1

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S850000x1_S850000x40_1_0_n_n_0_1_140 : GatherDims S50000x40 S850000x1 S850000x40 where
  offsetDims := [1]
  collapsedSliceDims := [0]
  operandBatchingDims := []
  startIndicesBatchingDims := []
  startIndexMap := [0]
  indexVectorDim := 1
  sliceSizes := ![1, 40]
  wf := gather_S50000x40_S850000x1_S850000x40_1_0_n_n_0_1_140_wf
def scatter_S50000x40_S850000x1_S850000x40_1_0_0_1 : ScatterDims S50000x40 S850000x1 S850000x40 where
  updateWindowDims := [1]
  insertedWindowDims := [0]
  scatterDimsToOperandDims := [0]
  indexVectorDim := 1
  wf := scatter_S50000x40_S850000x1_S850000x40_1_0_0_1_wf

class Facts : Prop extends Facts₀ where

variable [Facts]
-- ==== Proof.Stages.lean ====
/-
  The two programs' common stages, each one whole-array function of its operands, in the reference program's vocabulary
  (its shapes and dimension records). A graph convolution layer is: project the node features by a dense matrix; send
  each projected row along every edge (and every self-loop) scaled by the symmetric normalisation
  deg(src)^(-1/2) · deg(dst)^(-1/2); add up what arrives at each node; add the bias; clip at zero. Two such layers are
  followed by a row-wise log-softmax. The edge list (with the self-loops appended), the degrees and the normalisation
  are functions of the edge-index argument alone.
-/
import proofs.«121526_j37194416783907_1_alg».proof.ReferenceIdeal
import proofs.«121526_j37194416783907_1_alg».proof.Proof.Gen.ReferenceIdeal

noncomputable section

namespace Cert.ReferenceIdeal.Stage

open Cert.ReferenceIdeal Cert.ReferenceIdeal.Gen Idealize.ShloMosaic

variable {F : FTy → Type} [FloatOps F]

/-- Row 0 of the edge index (the sources), followed by the self-loops 0 … 49999. -/
def srcOf (x1 : (⟨S2x800000, .i32⟩ : BufTy).Contents (Elt F)) : (⟨S850000, .i32⟩ : BufTy).Contents (Elt F) :=
  concatenate S850000 0 [⟨S800000, (shapeCast _ (extractStridedSlice S1x800000 ![0, 0] x1 slices_S2x800000_S1x800000_0_0) shapeCasts_S1x800000_S800000)⟩, ⟨S50000, (iotaInDim S50000 32 0)⟩] concatenates_S800000_S50000_S850000_d0

/-- Row 1 of the edge index (the destinations), followed by the self-loops 0 … 49999. -/
def dstOf (x1 : (⟨S2x800000, .i32⟩ : BufTy).Contents (Elt F)) : (⟨S850000, .i32⟩ : BufTy).Contents (Elt F) :=
  concatenate S850000 0 [⟨S800000, (shapeCast _ (extractStridedSlice S1x800000 ![1, 0] x1 slices_S2x800000_S1x800000_1_0) shapeCasts_S1x800000_S800000)⟩, ⟨S50000, (iotaInDim S50000 32 0)⟩] concatenates_S800000_S50000_S850000_d0

/-- A node index as a gather reads it: a negative one counted from the end, as a column of start indices. -/
def wrap (v : (⟨S850000, .i32⟩ : BufTy).Contents (Elt F)) : (⟨S850000x1, .i32⟩ : BufTy).Contents (Elt F) :=
  broadcastInDim S850000x1 ![0] bcast_S850000_S850000x1_0 (select (cmpi .slt v (broadcastInDim S850000 ![] bcast_S_S850000 (constantI S_ 32 0#32))) (addi v (broadcastInDim S850000 ![] bcast_S_S850000 (constantI S_ 32 50000#32))) v)

/-- The in-degree of each node (self-loop included): ones scattered onto the destinations. -/
def deg (x1 : (⟨S2x800000, .i32⟩ : BufTy).Contents (Elt F)) : (⟨S50000, .f32⟩ : BufTy).Contents (Elt F) :=
  Host.scatterAdd scatter_S50000_S850000x1_S850000_n_0_0_1 (broadcastInDim S50000 ![] bcast_S_S50000 (constant S_ .f32 0x00000000#32)) (broadcastInDim S850000x1 ![0] bcast_S850000_S850000x1_0 (dstOf x1)) (broadcastInDim S850000 ![] bcast_S_S850000 (constant S_ .f32 0x3F800000#32))

/-- deg^(-1/2) where the degree is positive, zero elsewhere. -/
def degInv (x1 : (⟨S2x800000, .i32⟩ : BufTy).Contents (Elt F)) : (⟨S50000, .f32⟩ : BufTy).Contents (Elt F) :=
  select (cmpf (F := F) .ogt (deg x1) (broadcastInDim S50000 ![] bcast_S_S50000 (constant S_ .f32 0x00000000#32))) (Host.rsqrt (deg x1)) (broadcastInDim S50000 ![] bcast_S_S50000 (id (constant S_ .f32 0x00000000#32)))

/-- The edge weights deg(src)^(-1/2) · deg(dst)^(-1/2). -/
def normOf (x1 : (⟨S2x800000, .i32⟩ : BufTy).Contents (Elt F)) : (⟨S850000, .f32⟩ : BufTy).Contents (Elt F) :=
  mulf (Host.gather gather_S50000_S850000x1_S850000_n_0_n_n_0_1_1 (degInv x1) (wrap (srcOf x1))) (Host.gather gather_S50000_S850000x1_S850000_n_0_n_n_0_1_1 (degInv x1) (wrap (dstOf x1)))

/-- One round of message passing on 128-wide rows: gather the source rows, scale by the edge weights, add into the destinations. -/
def agg128 (h : (⟨S50000x128, .f32⟩ : BufTy).Contents (Elt F)) (x1 : (⟨S2x800000, .i32⟩ : BufTy).Contents (Elt F)) : (⟨S50000x128, .f32⟩ : BufTy).Contents (Elt F) :=
  Host.scatterAdd scatter_S50000x128_S850000x1_S850000x128_1_0_0_1 (broadcastInDim S50000x128 ![] bcast_S_S50000x128 (constant S_ .f32 0x00000000#32)) (broadcastInDim S850000x1 ![0] bcast_S850000_S850000x1_0 (dstOf x1)) (mulf (Host.gather gather_S50000x128_S850000x1_S850000x128_1_0_n_n_0_1_1128 h (wrap (srcOf x1))) (broadcastInDim S850000x128 ![0, 1] bcast_S850000x1_S850000x128_0_1 (broadcastInDim S850000x1 ![0] bcast_S850000_S850000x1_0 (normOf x1))))

/-- The same on 40-wide rows. -/
def agg40 (h : (⟨S50000x40, .f32⟩ : BufTy).Contents (Elt F)) (x1 : (⟨S2x800000, .i32⟩ : BufTy).Contents (Elt F)) : (⟨S50000x40, .f32⟩ : BufTy).Contents (Elt F) :=
  Host.scatterAdd scatter_S50000x40_S850000x1_S850000x40_1_0_0_1 (broadcastInDim S50000x40 ![] bcast_S_S50000x40 (constant S_ .f32 0x00000000#32)) (broadcastInDim S850000x1 ![0] bcast_S850000_S850000x1_0 (dstOf x1)) (mulf (Host.gather gather_S50000x40_S850000x1_S850000x40_1_0_n_n_0_1_140 h (wrap (srcOf x1))) (broadcastInDim S850000x40 ![0, 1] bcast_S850000x1_S850000x40_0_1 (broadcastInDim S850000x1 ![0] bcast_S850000_S850000x1_0 (normOf x1))))

/-- The dense projections. -/
def dot128 (x : (⟨S50000x128, .f32⟩ : BufTy).Contents (Elt F)) (w : (⟨S128x128, .f32⟩ : BufTy).Contents (Elt F)) : (⟨S50000x128, .f32⟩ : BufTy).Contents (Elt F) :=
  Host.dotGeneral dot_S50000x128_S128x128_S50000x128_1_0_0_1_n_n none x w

def dot40 (h : (⟨S50000x128, .f32⟩ : BufTy).Contents (Elt F)) (w : (⟨S128x40, .f32⟩ : BufTy).Contents (Elt F)) : (⟨S50000x40, .f32⟩ : BufTy).Contents (Elt F) :=
  Host.dotGeneral dot_S50000x128_S128x40_S50000x40_1_0_0_1_n_n none h w

/-- Add the bias to every row and clip at zero. -/
def biasRelu128 (a : (⟨S50000x128, .f32⟩ : BufTy).Contents (Elt F)) (b : (⟨S128, .f32⟩ : BufTy).Contents (Elt F)) : (⟨S50000x128, .f32⟩ : BufTy).Contents (Elt F) :=
  maximumf (addf a (broadcastInDim S50000x128 ![0, 1] bcast_S1x128_S50000x128_0_1 (broadcastInDim S1x128 ![1] bcast_S128_S1x128_1 b))) (broadcastInDim S50000x128 ![] bcast_S_S50000x128 (constant S_ .f32 0x00000000#32))

def biasRelu40 (a : (⟨S50000x40, .f32⟩ : BufTy).Contents (Elt F)) (b : (⟨S40, .f32⟩ : BufTy).Contents (Elt F)) : (⟨S50000x40, .f32⟩ : BufTy).Contents (Elt F) :=
  maximumf (addf a (broadcastInDim S50000x40 ![0, 1] bcast_S1x40_S50000x40_0_1 (broadcastInDim S1x40 ![1] bcast_S40_S1x40_1 b))) (broadcastInDim S50000x40 ![] bcast_S_S50000x40 (constant S_ .f32 0x00000000#32))

/-- A row minus its maximum. -/
def shifted (y : (⟨S50000x40, .f32⟩ : BufTy).Contents (Elt F)) : (⟨S50000x40, .f32⟩ : BufTy).Contents (Elt F) :=
  subf y (broadcastInDim S50000x40 ![0, 1] bcast_S50000x1_S50000x40_0_1 (broadcastInDim S50000x1 ![0] bcast_S50000_S50000x1_0 (maximumf (broadcastInDim S50000 ![] bcast_S_S50000 (constant S_ .f32 0xFF800000#32)) (Host.reduce FloatOps.maximumf y (constant S_ .f32 0xFF800000#32) reducesTo_S50000x40_S50000_d1 h_S_))))

/-- The row-wise log-softmax: the shifted row minus the logarithm of the sum of its exponentials. -/
def logSoftmax (y : (⟨S50000x40, .f32⟩ : BufTy).Contents (Elt F)) : (⟨S50000x40, .f32⟩ : BufTy).Contents (Elt F) :=
  subf (shifted y) (broadcastInDim S50000x40 ![0, 1] bcast_S50000x1_S50000x40_0_1 (Host.log (broadcastInDim S50000x1 ![0] bcast_S50000_S50000x1_0 (Host.reduceAdd (Host.exp (shifted y)) (constant S_ .f32 0x00000000#32) reducesTo_S50000x40_S50000_d1 h_S_))))

/-- The whole network as one function of the six arguments. -/
def whole (x0 : (⟨S50000x128, .f32⟩ : BufTy).Contents (Elt F)) (x1 : (⟨S2x800000, .i32⟩ : BufTy).Contents (Elt F)) (x2 : (⟨S128x128, .f32⟩ : BufTy).Contents (Elt F)) (x3 : (⟨S128, .f32⟩ : BufTy).Contents (Elt F)) (x4 : (⟨S128x40, .f32⟩ : BufTy).Contents (Elt F)) (x5 : (⟨S40, .f32⟩ : BufTy).Contents (Elt F)) : (⟨S50000x40, .f32⟩ : BufTy).Contents (Elt F) :=
  logSoftmax (biasRelu40 (agg40 (dot40 (biasRelu128 (agg128 (dot128 x0 x2) x1) x3) x4) x1) x5)

end Cert.ReferenceIdeal.Stage

end
-- ==== Proof.Region0.lean ====
/-
  Region 0: a matrix product computed row block by row block is the matrix product of the whole arrays.

  The grid has 10 points. At point t the first window holds rows 5000·t … 5000·t + 4999 of the [50000,128] operand,
  the second window holds the whole [128,128] weight matrix at every point, and the body stores into the third window's
  block t (rows 5000·t … 5000·t + 4999 of the [50000,128] result) the product of the two loaded blocks accumulated into
  zero. At the ideal values narrowing a format is the identity and a product into the zero accumulator is the plain
  sum over the contraction index, so entry (r, j) of the stored block is  ∑ k, block(r, k) · w(k, j).
  The reference's projection of the whole arrays has entry (i, j) equal to  ∑ k, x(i, k) · w(k, j).
  Both contraction index sets have one axis of extent 128; each sum is re-indexed over the numbers below 128, and
  then the two agree term by term, because element (r, k) of the operand's block t is element (5000·t + r, k) of the
  operand, the weight block is the weight matrix itself, and element (r, j) of the result's block t is element
  (5000·t + r, j) of the result. So what point t writes back is block t of the whole product.
  Every row i lies in the block of point i / 5000, and every point writes its block back, so the blocks cover the
  result array, which therefore ends holding the whole product.
-/
import proofs.«121526_j37194416783907_1_alg».proof.Proof.Gen.KernelIdeal.Frame
import proofs.«121526_j37194416783907_1_alg».proof.Proof.Stages
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem hz_r0 : (![0, 0] : Fin 2 → Nat) = fun _ => 0 := funext fun a => by fin_cases a <;> rfl

/-- The dimension numbers of the block product and of the whole product: rows × contraction times contraction × columns. -/
abbrev DK0 := Cert.KernelIdeal.dot_S5000x128_S128x128_S5000x128_1_0_0_1_n_n
abbrev DR0 := Cert.ReferenceIdeal.dot_S50000x128_S128x128_S50000x128_1_0_0_1_n_n

/-! ## Where a product reads its operands: output index (r, j), contraction index k ↦ (r, k) and (k, j) -/

theorem lhsK0_0 (i : S5000x128.Idx) (q : DK0.contr.Idx) : (DK0.lhsIdx i q 0).val = (i 0).val := by
  unfold DotDims.lhsIdx
  rw [dif_neg (show ¬(0 : Fin S5000x128.rank) ∈ DK0.lhsBatch by decide), dif_pos (show (0 : Fin S5000x128.rank) ∈ DK0.lhsNonContracting by decide)]
  rfl
theorem lhsK0_1 (i : S5000x128.Idx) (q : DK0.contr.Idx) : (DK0.lhsIdx i q 1).val = (q ⟨0, by decide⟩).val :=
  DK0.lhsIdx_val_of_single rfl i q
theorem rhsK0_0 (i : S5000x128.Idx) (q : DK0.contr.Idx) : (DK0.rhsIdx i q 0).val = (q ⟨0, by decide⟩).val :=
  DK0.rhsIdx_val_of_single rfl i q
theorem rhsK0_1 (i : S5000x128.Idx) (q : DK0.contr.Idx) : (DK0.rhsIdx i q 1).val = (i 1).val := by
  unfold DotDims.rhsIdx
  rw [dif_neg (show ¬(1 : Fin S128x128.rank) ∈ DK0.rhsBatch by decide), dif_pos (show (1 : Fin S128x128.rank) ∈ DK0.rhsNonContracting by decide)]
  rfl

theorem lhsR0_0 (i : Cert.ReferenceIdeal.S50000x128.Idx) (q : DR0.contr.Idx) : (DR0.lhsIdx i q 0).val = (i 0).val := by
  unfold DotDims.lhsIdx
  rw [dif_neg (show ¬(0 : Fin Cert.ReferenceIdeal.S50000x128.rank) ∈ DR0.lhsBatch by decide), dif_pos (show (0 : Fin Cert.ReferenceIdeal.S50000x128.rank) ∈ DR0.lhsNonContracting by decide)]
  rfl
theorem lhsR0_1 (i : Cert.ReferenceIdeal.S50000x128.Idx) (q : DR0.contr.Idx) : (DR0.lhsIdx i q 1).val = (q ⟨0, by decide⟩).val :=
  DR0.lhsIdx_val_of_single rfl i q
theorem rhsR0_0 (i : Cert.ReferenceIdeal.S50000x128.Idx) (q : DR0.contr.Idx) : (DR0.rhsIdx i q 0).val = (q ⟨0, by decide⟩).val :=
  DR0.rhsIdx_val_of_single rfl i q
theorem rhsR0_1 (i : Cert.ReferenceIdeal.S50000x128.Idx) (q : DR0.contr.Idx) : (DR0.rhsIdx i q 1).val = (i 1).val := by
  unfold DotDims.rhsIdx
  rw [dif_neg (show ¬(1 : Fin Cert.ReferenceIdeal.S128x128.rank) ∈ DR0.rhsBatch by decide), dif_pos (show (1 : Fin Cert.ReferenceIdeal.S128x128.rank) ∈ DR0.rhsNonContracting by decide)]
  rfl

/-! ## The two products at an index, each as a sum over the 128 contraction coordinates -/

/-- The body's stored value at an index: the narrowing casts are the identity on the ideal values and the product is
    accumulated into zero, so it is the sum of the operands' products, re-indexed by the contraction coordinate. -/
theorem pay0_apply (x : Vec Ideal S5000x128 .f32) (w : Vec Ideal S128x128 .f32) (j : S5000x128.Idx) :
    k0_pay1 (F := Ideal) x w j = ∑ k : Fin 128, x (DK0.lhsIdx j ((ValueIdx.contrEquiv1 DK0 128 rfl rfl).symm k)) * w (DK0.rhsIdx j ((ValueIdx.contrEquiv1 DK0 128 rfl rfl).symm k)) := by
  unfold k0_pay1
  refine (Ideal.matmul_constant_zero_apply DK0 none _ _ j).trans ?_
  exact (Equiv.sum_comp (ValueIdx.contrEquiv1 DK0 128 rfl rfl).symm _).symm

/-- The reference's projection at an index: the same sum over the whole arrays. -/
theorem dot128_apply (x : (⟨Cert.ReferenceIdeal.S50000x128, .f32⟩ : BufTy).Contents (Elt Ideal)) (w : (⟨Cert.ReferenceIdeal.S128x128, .f32⟩ : BufTy).Contents (Elt Ideal)) (i : Cert.ReferenceIdeal.S50000x128.Idx) :
    Cert.ReferenceIdeal.Stage.dot128 (F := Ideal) x w i = ∑ k : Fin 128, x (DR0.lhsIdx i ((ValueIdx.contrEquiv1 DR0 128 rfl rfl).symm k)) * w (DR0.rhsIdx i ((ValueIdx.contrEquiv1 DR0 128 rfl rfl).symm k)) := by
  unfold Cert.ReferenceIdeal.Stage.dot128
  simp only [Host.dotGeneral]
  rw [Ideal.dotGeneral_apply]
  exact (Equiv.sum_comp (ValueIdx.contrEquiv1 DR0 128 rfl rfl).symm _).symm

/-! ## What a point writes back -/

/-- The index maps over the grid: the row-block index of the operand and of the result is the point's number, every
    other block index is zero. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

set_option maxHeartbeats 400000 in
/-- What point `t` writes back is block `t` of the whole product: the two sums agree term by term, each factor read where
    its block sits in its array (block index × block size + the coordinate inside the block). -/
theorem flushed0_eq (c : Dev nD) (t : Fin cfg0.N) :
    (dat0 (F := Ideal) V c).flushed 2 t = ((cfg0.win 2).blk t).view.read (Elt Ideal) (Cert.ReferenceIdeal.Stage.dot128 (F := Ideal) (V c main_arg0) (V c main_arg2)) := by
  show (cfg0.win 2).cut (grid0.coords t) ((dat0 (F := Ideal) V c).after 2 t) = _
  rw [after0_2]
  unfold out0_2
  rw [View.canon_unit_zero hz_r0]
  simp only [View.ld_unit_zero (S := S5000x128) hz_r0, View.ld_unit_zero (S := S128x128) hz_r0]
  obtain ⟨e0, e1, e2, e3, e4, e5⟩ := idx_facts0 t
  funext j
  show k0_pay1 (F := Ideal) (iblk0 V c 0 t) (iblk0 V c 1 t) j = Cert.ReferenceIdeal.Stage.dot128 (F := Ideal) (V c main_arg0) (V c main_arg2) (((cfg0.win 2).blk t).view.emb j)
  rw [pay0_apply, dot128_apply]
  refine Finset.sum_congr rfl fun k _ => ?_
  have hkK := ValueIdx.contrEquiv1_symm_val DK0 128 rfl rfl k
  have hkR := ValueIdx.contrEquiv1_symm_val DR0 128 rfl rfl k
  generalize (ValueIdx.contrEquiv1 DK0 128 rfl rfl).symm k = qK at hkK ⊢
  generalize (ValueIdx.contrEquiv1 DR0 128 rfl rfl).symm k = qR at hkR ⊢
  have hi0 : ((((cfg0.win 2).blk t).view.emb j) 0).val = win0_2.index t (0 : Fin 2) * 5000 + 1 * (j 0).val := rfl
  have hi1 : ((((cfg0.win 2).blk t).view.emb j) 1).val = win0_2.index t (1 : Fin 2) * 128 + 1 * (j 1).val := rfl
  have h0 : iblk0 V c 0 t (DK0.lhsIdx j qK) = V c main_arg0 (DR0.lhsIdx (((cfg0.win 2).blk t).view.emb j) qR) := by
    show V c main_arg0 (((cfg0.win 0).blk t).view.emb (DK0.lhsIdx j qK)) = _
    congr 1
    funext a; apply Fin.ext
    match a with
    | ⟨0, _⟩ =>
      show win0_0.index t (0 : Fin 2) * 5000 + 1 * (DK0.lhsIdx j qK 0).val = (DR0.lhsIdx (((cfg0.win 2).blk t).view.emb j) qR 0).val
      have a1 := lhsK0_0 j qK
      have a2 := lhsR0_0 (((cfg0.win 2).blk t).view.emb j) qR
      omega
    | ⟨1, _⟩ =>
      show win0_0.index t (1 : Fin 2) * 128 + 1 * (DK0.lhsIdx j qK 1).val = (DR0.lhsIdx (((cfg0.win 2).blk t).view.emb j) qR 1).val
      have a1 := lhsK0_1 j qK
      have a2 := lhsR0_1 (((cfg0.win 2).blk t).view.emb j) qR
      omega
  have h1 : iblk0 V c 1 t (DK0.rhsIdx j qK) = V c main_arg2 (DR0.rhsIdx (((cfg0.win 2).blk t).view.emb j) qR) := by
    show V c main_arg2 (((cfg0.win 1).blk t).view.emb (DK0.rhsIdx j qK)) = _
    congr 1
    funext a; apply Fin.ext
    match a with
    | ⟨0, _⟩ =>
      show win0_1.index t (0 : Fin 2) * 128 + 1 * (DK0.rhsIdx j qK 0).val = (DR0.rhsIdx (((cfg0.win 2).blk t).view.emb j) qR 0).val
      have a1 := rhsK0_0 j qK
      have a2 := rhsR0_0 (((cfg0.win 2).blk t).view.emb j) qR
      omega
    | ⟨1, _⟩ =>
      show win0_1.index t (1 : Fin 2) * 128 + 1 * (DK0.rhsIdx j qK 1).val = (DR0.rhsIdx (((cfg0.win 2).blk t).view.emb j) qR 1).val
      have a1 := rhsK0_1 j qK
      have a2 := rhsR0_1 (((cfg0.win 2).blk t).view.emb j) qR
      omega
  rw [h0, h1]

/-! ## The blocks cover the result -/

/-- An index of the result array is in point `t`'s block iff each coordinate is in the block's range on its axis. -/
theorem mem_blk0 (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Row `r` of the result lies in the block of point `r / 5000`, and that point writes its block back. -/
theorem cover0 (i : S50000x128.Idx) : ∃ t : Fin cfg0.N, (cfg0.win 2).flush t = true ∧ i ∈ ((cfg0.win 2).blk t).view.set := by
  have hi0 : (i 0).val < 50000 := (i 0).isLt
  have hi1 : (i 1).val < 128 := (i 1).isLt
  have hN : cfg0.N = 10 := N_0
  obtain ⟨t, ht⟩ : ∃ t : Fin cfg0.N, t.val = (i 0).val / 5000 := ⟨⟨(i 0).val / 5000, by omega⟩, rfl⟩
  obtain ⟨-, -, -, -, e4, e5⟩ := idx_facts0 t
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- The result array after the region is the whole dense projection of the region's two operand arrays. -/
theorem region0_array (c : Dev nD) :
    (dat0 (F := Ideal) V c).arrAt 2 cfg0.N = Cert.ReferenceIdeal.Stage.dot128 (F := Ideal) (V c main_arg0) (V c main_arg2) :=
  (dat0 (F := Ideal) V c).arrAt_eq_of_cover 2 _ (fun t _ => flushed0_eq V c t) cover0

end Cert.KernelIdeal.Hand

end
-- ==== Proof.Region1.lean ====
/-
  The second kernel is the reference's bias-and-clip of the whole array.

  The kernel walks a [50000,128] array in ten blocks of 5000 rows. At each grid point it holds one block of the input,
  the one [1,128] bias row, and one block of the output; its body adds the bias row to every row of the input block and
  takes the maximum with zero, entry by entry. The reference does the same to the whole array at once: it spreads the
  [128] bias vector to a row, the row over all 50000 rows, adds, and takes the maximum with a zero array.

  The proof reads both sides at one entry. An entry (p, q) of the body's result is max(x(p, q) + row(0, q), 0); an entry
  (r, q) of the reference's result is max(a(r, q) + bias(q), 0). An entry of block t sits in the array at row 5000·t + p
  and column q, for the input block and the output block alike (the index maps are decided once over the ten points),
  and the bias row, being the bias vector recast as one row, holds bias(q) at (0, q). So what point t writes back is
  block t of the reference's array. Row r lies in the block of point r / 5000 and every point writes back, so the blocks
  fill the array, and the array after the region is the reference's.
-/
import proofs.«121526_j37194416783907_1_alg».proof.Proof.Gen.KernelIdeal.Frame
import proofs.«121526_j37194416783907_1_alg».proof.Proof.Stages
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The offsets of a whole-block access are all zero, however the zeros are spelt. -/
theorem r1_zero_off : (![0, 0] : Fin 2 → Nat) = fun _ => 0 := funext fun a => by fin_cases a <;> rfl

/-- One entry of the kernel body's result: the block's entry plus the bias row's entry of the same column,
    clipped at zero. The two recasts are of a shape to itself; the row, spread over the block's rows, is read at
    row 0 and the entry's column; the clipping constant is zero everywhere. -/
theorem r1_body_apply (x0 : Vec Ideal S5000x128 .f32) (x1 : Vec Ideal S1x128 .f32) (j : S5000x128.Idx) (k : S1x128.Idx)
    (hk0 : (k 0).val = 0) (hk1 : (k 1).val = (j 1).val) :
    k1_pay1 x0 x1 j = max (x0 j + x1 k) (Ideal.ofBits .f32 0x00000000#32) := by
  unfold k1_pay1
  simp only [shapeCast_self]
  rw [maximumf_apply, addf_apply, broadcast_apply]
  rw [broadcastTo_apply x1 broadcasts_S1x128_S5000x128 j k (fun a => match a with
    | ⟨0, _⟩ => by show (k 0).val = if (1 : Nat) = 1 then 0 else _; rw [if_pos rfl]; exact hk0
    | ⟨1, _⟩ => by show (k 1).val = if (128 : Nat) = 1 then 0 else (j 1).val; rw [if_neg (by decide)]; exact hk1)]
  rfl

/-- One entry of the reference's bias-and-clip: the array's entry plus the bias vector's entry of the same column,
    clipped at zero. The bias is spread first to one row, then over all rows; the zero over the whole array. -/
theorem r1_stage_apply (a : (⟨Cert.ReferenceIdeal.S50000x128, .f32⟩ : BufTy).Contents (Elt Ideal))
    (b : (⟨Cert.ReferenceIdeal.S128, .f32⟩ : BufTy).Contents (Elt Ideal))
    (i : Cert.ReferenceIdeal.S50000x128.Idx) (l : Cert.ReferenceIdeal.S128.Idx) (hl : (l 0).val = (i 1).val) :
    Cert.ReferenceIdeal.Stage.biasRelu128 (F := Ideal) a b i = max (a i + b l) (Ideal.ofBits .f32 0x00000000#32) := by
  unfold Cert.ReferenceIdeal.Stage.biasRelu128
  rw [maximumf_apply, addf_apply]
  rw [broadcastInDim_apply _ Cert.ReferenceIdeal.Gen.bcast_S1x128_S50000x128_0_1 _ i
    (fun a => match a with | ⟨0, _⟩ => ⟨0, Nat.one_pos⟩ | ⟨1, _⟩ => ⟨(i 1).val, (i 1).isLt⟩) (fun a => match a with
    | ⟨0, _⟩ => by show 0 = if (1 : Nat) = 1 then 0 else (i 0).val; rw [if_pos rfl]
    | ⟨1, _⟩ => by show (i 1).val = if (128 : Nat) = 1 then 0 else (i 1).val; rw [if_neg (by decide)])]
  rw [broadcastInDim_apply _ Cert.ReferenceIdeal.Gen.bcast_S128_S1x128_1 b _ l (fun a => match a with
    | ⟨0, _⟩ => by show (l 0).val = if (128 : Nat) = 1 then 0 else (i 1).val; rw [if_neg (by decide)]; exact hl)]
  rw [broadcastInDim_apply _ Cert.ReferenceIdeal.Gen.bcast_S_S50000x128 _ i (fun a => a.elim0) (fun a => a.elim0)]
  rfl

/-- A vector recast as one row, read at (0, column), is the vector at that column: the two row-major positions agree. -/
theorem r1_row_apply (b : (⟨Cert.ReferenceIdeal.S128, .f32⟩ : BufTy).Contents (Elt Ideal)) (k : S1x128.Idx)
    (l : Cert.ReferenceIdeal.S128.Idx) (hl : (l 0).val = (k 1).val) :
    shapeCast S1x128 b shapeCasts_S128_S1x128 k = b l := by
  have hk0 : (k 0).val < 1 := (k 0).isLt
  refine shapeCast_apply b shapeCasts_S128_S1x128 k l ?_
  rw [Shape.rowMajor_val_one, Shape.rowMajor_val_two]
  show (l 0).val = (k 0).val * 128 + (k 1).val
  omega

/-- The three windows' index maps over the ten grid points: the input block and the output block move together down the
    rows, one block per point, on the one column block; the bias row is always its one block. -/
theorem r1_idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What grid point `t` writes back is block `t` of the reference's bias-and-clip of the whole input array. An entry
    of the block sits in the array at block index × block size + its own coordinate, on each axis; the input block
    sits at the same rows as the output block, and the bias row's entry under the same column is the bias vector's. -/
theorem r1_flushed (c : Dev nD) (b : (⟨Cert.ReferenceIdeal.S128, .f32⟩ : BufTy).Contents (Elt Ideal))
    (hb : V c main_v44 = shapeCast S1x128 b shapeCasts_S128_S1x128) (t : Fin cfg1.N) :
    (dat1 (F := Ideal) V c).flushed 2 t
      = ((cfg1.win 2).blk t).view.read (Elt Ideal) (Cert.ReferenceIdeal.Stage.biasRelu128 (F := Ideal) (V c main_v43) b) := by
  show (cfg1.win 2).cut (grid1.coords t) ((dat1 V c).after 2 t) = _
  rw [after1_2]
  unfold out1_2
  rw [View.canon_unit_zero r1_zero_off]
  simp only [View.ld_unit_zero (S := S5000x128) r1_zero_off, View.ld_unit_zero (S := S1x128) r1_zero_off]
  obtain ⟨e00, e01, e10, e11, e20, e21⟩ := r1_idx_facts t
  funext j
  have hj1 : (j 1).val < 128 := (j 1).isLt
  show k1_pay1 (iblk1 V c 0 t) (iblk1 V c 1 t) j
    = Cert.ReferenceIdeal.Stage.biasRelu128 (F := Ideal) (V c main_v43) b (((cfg1.win 2).blk t).view.emb j)
  -- the entry's column in the bias vector
  have hl : ((ix1 (⟨(j 1).val, hj1⟩ : Fin 128) : Cert.ReferenceIdeal.S128.Idx) 0).val
      = ((((cfg1.win 2).blk t).view.emb j) 1).val := by
    show (j 1).val = win1_2.index t (1 : Fin 2) * 128 + 1 * (j 1).val
    rw [e21]; omega
  refine (r1_body_apply _ _ j (ix2 (0 : Fin 1) (⟨(j 1).val, hj1⟩ : Fin 128)) rfl rfl).trans
    (Eq.trans ?_ (r1_stage_apply (V c main_v43) b _ (ix1 (⟨(j 1).val, hj1⟩ : Fin 128)) hl).symm)
  -- the input block's entry is the input array's at the output entry's place
  have h0 : iblk1 V c 0 t j = V c main_v43 (((cfg1.win 2).blk t).view.emb j) := by
    show V c main_v43 (((cfg1.win 0).blk t).view.emb j) = V c main_v43 (((cfg1.win 2).blk t).view.emb j)
    refine congrArg _ (funext fun a => Fin.ext ?_)
    match a with
    | ⟨0, _⟩ => show win1_0.index t (0 : Fin 2) * 5000 + 1 * (j 0).val = win1_2.index t (0 : Fin 2) * 5000 + 1 * (j 0).val; rw [e00, e20]
    | ⟨1, _⟩ => show win1_0.index t (1 : Fin 2) * 128 + 1 * (j 1).val = win1_2.index t (1 : Fin 2) * 128 + 1 * (j 1).val; rw [e01, e21]
  -- the bias row's entry under the same column is the bias vector's
  have h1 : iblk1 V c 1 t (ix2 (0 : Fin 1) (⟨(j 1).val, hj1⟩ : Fin 128)) = b (ix1 (⟨(j 1).val, hj1⟩ : Fin 128)) := by
    show V c main_v44 (((cfg1.win 1).blk t).view.emb (ix2 (0 : Fin 1) (⟨(j 1).val, hj1⟩ : Fin 128))) = _
    rw [hb]
    refine r1_row_apply b _ _ ?_
    show (j 1).val = win1_1.index t (1 : Fin 2) * 128 + 1 * (j 1).val
    rw [e11]; omega
  rw [h0, h1]

/-- An index of the array is in point `t`'s block iff each coordinate is in the block's range on its axis. -/
theorem r1_mem_blk (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- The ten row blocks fill the array: row `r` lies in the block of point `r / 5000`, and every point writes back. -/
theorem r1_cover (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  have hN : grid1.N = 10 := N_1
  obtain ⟨t, ht⟩ : ∃ t : Fin cfg1.N, t.val = (i 0).val / 5000 :=
    ⟨⟨(i 0).val / 5000, lt_of_lt_of_eq (by omega : (i 0).val / 5000 < 10) hN.symm⟩, rfl⟩
  obtain ⟨-, -, -, -, e20, e21⟩ := r1_idx_facts t
  refine ⟨t, flush1_2 t, ?_⟩
  rw [r1_mem_blk]
  intro a
  match a with
  | ⟨0, _⟩ => show win1_2.index t (0 : Fin 2) * 5000 ≤ (i 0).val ∧ (i 0).val < win1_2.index t (0 : Fin 2) * 5000 + 5000; rw [e20, ht]; omega
  | ⟨1, _⟩ => show win1_2.index t (1 : Fin 2) * 128 ≤ (i 1).val ∧ (i 1).val < win1_2.index t (1 : Fin 2) * 128 + 128; rw [e21]; omega

/-- The output array after the region: every point writes back its block of the reference's bias-and-clip, and the
    blocks fill the array. -/
theorem region1_array (c : Dev nD) (b : (⟨Cert.ReferenceIdeal.S128, .f32⟩ : BufTy).Contents (Elt Ideal))
    (hb : V c main_v44 = shapeCast S1x128 b shapeCasts_S128_S1x128) :
    (dat1 (F := Ideal) V c).arrAt 2 cfg1.N = Cert.ReferenceIdeal.Stage.biasRelu128 (F := Ideal) (V c main_v43) b :=
  (dat1 (F := Ideal) V c).arrAt_eq_of_cover 2 _ (fun t _ => r1_flushed V c b hb t) r1_cover

end Cert.KernelIdeal.Hand

end
-- ==== Proof.Region2.lean ====
/-
  Region 2: a matrix product computed row block by row block is the matrix product of the whole arrays.

  The grid has 10 points. At point t the first window holds rows 5000·t … 5000·t + 4999 of the [50000,128] operand,
  the second window holds the whole [128,40] weight matrix at every point, and the body stores into the third window's
  block t (rows 5000·t … 5000·t + 4999 of the [50000,40] result) the product of the two loaded blocks accumulated into
  zero (the operand block first cast to its own shape, which changes nothing). At the ideal values narrowing a format
  is the identity and a product into the zero accumulator is the plain sum over the contraction index, so entry (r, j)
  of the stored block is  ∑ k, block(r, k) · w(k, j).
  The reference's projection of the whole arrays has entry (i, j) equal to  ∑ k, x(i, k) · w(k, j).
  Both contraction index sets have one axis of extent 128; each sum is re-indexed over the numbers below 128, and
  then the two agree term by term, because element (r, k) of the operand's block t is element (5000·t + r, k) of the
  operand, the weight block is the weight matrix itself, and element (r, j) of the result's block t is element
  (5000·t + r, j) of the result. So what point t writes back is block t of the whole product.
  Every row i lies in the block of point i / 5000, and every point writes its block back, so the blocks cover the
  result array, which therefore ends holding the whole product.
-/
import proofs.«121526_j37194416783907_1_alg».proof.Proof.Gen.KernelIdeal.Frame
import proofs.«121526_j37194416783907_1_alg».proof.Proof.Stages
import Idealize.ShloMosaic.Lib.Pipeline.Value
import Idealize.ShloMosaic.Lib.ValueIdx
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

variable (V : (c : Dev nD) → (b : Ref sig .tc) → Buf (Elt Ideal) ((c : Thread nD τ).loc b))

/-- The zero offsets of a whole-buffer access, as a constant function. -/
theorem hz_r2 : (![0, 0] : Fin 2 → Nat) = fun _ => 0 := funext fun a => by fin_cases a <;> rfl

/-- The dimension numbers of the block product and of the whole product: rows × contraction times contraction × columns. -/
abbrev DK2 := Cert.KernelIdeal.dot_S5000x128_S128x40_S5000x40_1_0_0_1_n_n
abbrev DR2 := Cert.ReferenceIdeal.dot_S50000x128_S128x40_S50000x40_1_0_0_1_n_n

/-! ## Where a product reads its operands: output index (r, j), contraction index k ↦ (r, k) and (k, j) -/

theorem lhsK2_0 (i : S5000x40.Idx) (q : DK2.contr.Idx) : (DK2.lhsIdx i q 0).val = (i 0).val := by
  unfold DotDims.lhsIdx
  rw [dif_neg (show ¬(0 : Fin S5000x128.rank) ∈ DK2.lhsBatch by decide), dif_pos (show (0 : Fin S5000x128.rank) ∈ DK2.lhsNonContracting by decide)]
  rfl
theorem lhsK2_1 (i : S5000x40.Idx) (q : DK2.contr.Idx) : (DK2.lhsIdx i q 1).val = (q ⟨0, by decide⟩).val :=
  DK2.lhsIdx_val_of_single rfl i q
theorem rhsK2_0 (i : S5000x40.Idx) (q : DK2.contr.Idx) : (DK2.rhsIdx i q 0).val = (q ⟨0, by decide⟩).val :=
  DK2.rhsIdx_val_of_single rfl i q
theorem rhsK2_1 (i : S5000x40.Idx) (q : DK2.contr.Idx) : (DK2.rhsIdx i q 1).val = (i 1).val := by
  unfold DotDims.rhsIdx
  rw [dif_neg (show ¬(1 : Fin S128x40.rank) ∈ DK2.rhsBatch by decide), dif_pos (show (1 : Fin S128x40.rank) ∈ DK2.rhsNonContracting by decide)]
  rfl

theorem lhsR2_0 (i : Cert.ReferenceIdeal.S50000x40.Idx) (q : DR2.contr.Idx) : (DR2.lhsIdx i q 0).val = (i 0).val := by
  unfold DotDims.lhsIdx
  rw [dif_neg (show ¬(0 : Fin Cert.ReferenceIdeal.S50000x128.rank) ∈ DR2.lhsBatch by decide), dif_pos (show (0 : Fin Cert.ReferenceIdeal.S50000x128.rank) ∈ DR2.lhsNonContracting by decide)]
  rfl
theorem lhsR2_1 (i : Cert.ReferenceIdeal.S50000x40.Idx) (q : DR2.contr.Idx) : (DR2.lhsIdx i q 1).val = (q ⟨0, by decide⟩).val :=
  DR2.lhsIdx_val_of_single rfl i q
theorem rhsR2_0 (i : Cert.ReferenceIdeal.S50000x40.Idx) (q : DR2.contr.Idx) : (DR2.rhsIdx i q 0).val = (q ⟨0, by decide⟩).val :=
  DR2.rhsIdx_val_of_single rfl i q
theorem rhsR2_1 (i : Cert.ReferenceIdeal.S50000x40.Idx) (q : DR2.contr.Idx) : (DR2.rhsIdx i q 1).val = (i 1).val := by
  unfold DotDims.rhsIdx
  rw [dif_neg (show ¬(1 : Fin Cert.ReferenceIdeal.S128x40.rank) ∈ DR2.rhsBatch by decide), dif_pos (show (1 : Fin Cert.ReferenceIdeal.S128x40.rank) ∈ DR2.rhsNonContracting by decide)]
  rfl

/-! ## The two products at an index, each as a sum over the 128 contraction coordinates -/

/-- The body's stored value at an index: the cast of the operand block to its own shape is the identity, the narrowing casts
    are the identity on the ideal values and the product is accumulated into zero, so it is the sum of the operands' products, re-indexed by the contraction coordinate. -/
theorem pay2_apply (x : Vec Ideal S5000x128 .f32) (w : Vec Ideal S128x40 .f32) (j : S5000x40.Idx) :
    k2_pay1 (F := Ideal) x w j = ∑ k : Fin 128, x (DK2.lhsIdx j ((ValueIdx.contrEquiv1 DK2 128 rfl rfl).symm k)) * w (DK2.rhsIdx j ((ValueIdx.contrEquiv1 DK2 128 rfl rfl).symm k)) := by
  unfold k2_pay1
  rw [shapeCast_self]
  refine (Ideal.matmul_constant_zero_apply DK2 none _ _ j).trans ?_
  exact (Equiv.sum_comp (ValueIdx.contrEquiv1 DK2 128 rfl rfl).symm _).symm

/-- The reference's projection at an index: the same sum over the whole arrays. -/
theorem dot40_apply (x : (⟨Cert.ReferenceIdeal.S50000x128, .f32⟩ : BufTy).Contents (Elt Ideal)) (w : (⟨Cert.ReferenceIdeal.S128x40, .f32⟩ : BufTy).Contents (Elt Ideal)) (i : Cert.ReferenceIdeal.S50000x40.Idx) :
    Cert.ReferenceIdeal.Stage.dot40 (F := Ideal) x w i = ∑ k : Fin 128, x (DR2.lhsIdx i ((ValueIdx.contrEquiv1 DR2 128 rfl rfl).symm k)) * w (DR2.rhsIdx i ((ValueIdx.contrEquiv1 DR2 128 rfl rfl).symm k)) := by
  unfold Cert.ReferenceIdeal.Stage.dot40
  simp only [Host.dotGeneral]
  rw [Ideal.dotGeneral_apply]
  exact (Equiv.sum_comp (ValueIdx.contrEquiv1 DR2 128 rfl rfl).symm _).symm

/-! ## What a point writes back -/

/-- The index maps over the grid: the row-block index of the operand and of the result is the point's number, every
    other block index is zero. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

set_option maxHeartbeats 400000 in
/-- What point `t` writes back is block `t` of the whole product: the two sums agree term by term, each factor read where
    its block sits in its array (block index × block size + the coordinate inside the block). -/
theorem flushed2_eq (c : Dev nD) (t : Fin cfg2.N) :
    (dat2 (F := Ideal) V c).flushed 2 t = ((cfg2.win 2).blk t).view.read (Elt Ideal) (Cert.ReferenceIdeal.Stage.dot40 (F := Ideal) (V c main_v45) (V c main_arg4)) := by
  show (cfg2.win 2).cut (grid2.coords t) ((dat2 (F := Ideal) V c).after 2 t) = _
  rw [after2_2]
  unfold out2_2
  rw [View.canon_unit_zero hz_r2]
  simp only [View.ld_unit_zero (S := S5000x128) hz_r2, View.ld_unit_zero (S := S128x40) hz_r2]
  obtain ⟨e0, e1, e2, e3, e4, e5⟩ := idx_facts2 t
  funext j
  show k2_pay1 (F := Ideal) (iblk2 V c 0 t) (iblk2 V c 1 t) j = Cert.ReferenceIdeal.Stage.dot40 (F := Ideal) (V c main_v45) (V c main_arg4) (((cfg2.win 2).blk t).view.emb j)
  rw [pay2_apply, dot40_apply]
  refine Finset.sum_congr rfl fun k _ => ?_
  have hkK := ValueIdx.contrEquiv1_symm_val DK2 128 rfl rfl k
  have hkR := ValueIdx.contrEquiv1_symm_val DR2 128 rfl rfl k
  generalize (ValueIdx.contrEquiv1 DK2 128 rfl rfl).symm k = qK at hkK ⊢
  generalize (ValueIdx.contrEquiv1 DR2 128 rfl rfl).symm k = qR at hkR ⊢
  have hi0 : ((((cfg2.win 2).blk t).view.emb j) 0).val = win2_2.index t (0 : Fin 2) * 5000 + 1 * (j 0).val := rfl
  have hi1 : ((((cfg2.win 2).blk t).view.emb j) 1).val = win2_2.index t (1 : Fin 2) * 40 + 1 * (j 1).val := rfl
  have h0 : iblk2 V c 0 t (DK2.lhsIdx j qK) = V c main_v45 (DR2.lhsIdx (((cfg2.win 2).blk t).view.emb j) qR) := by
    show V c main_v45 (((cfg2.win 0).blk t).view.emb (DK2.lhsIdx j qK)) = _
    congr 1
    funext a; apply Fin.ext
    match a with
    | ⟨0, _⟩ =>
      show win2_0.index t (0 : Fin 2) * 5000 + 1 * (DK2.lhsIdx j qK 0).val = (DR2.lhsIdx (((cfg2.win 2).blk t).view.emb j) qR 0).val
      have a1 := lhsK2_0 j qK
      have a2 := lhsR2_0 (((cfg2.win 2).blk t).view.emb j) qR
      omega
    | ⟨1, _⟩ =>
      show win2_0.index t (1 : Fin 2) * 128 + 1 * (DK2.lhsIdx j qK 1).val = (DR2.lhsIdx (((cfg2.win 2).blk t).view.emb j) qR 1).val
      have a1 := lhsK2_1 j qK
      have a2 := lhsR2_1 (((cfg2.win 2).blk t).view.emb j) qR
      omega
  have h1 : iblk2 V c 1 t (DK2.rhsIdx j qK) = V c main_arg4 (DR2.rhsIdx (((cfg2.win 2).blk t).view.emb j) qR) := by
    show V c main_arg4 (((cfg2.win 1).blk t).view.emb (DK2.rhsIdx j qK)) = _
    congr 1
    funext a; apply Fin.ext
    match a with
    | ⟨0, _⟩ =>
      show win2_1.index t (0 : Fin 2) * 128 + 1 * (DK2.rhsIdx j qK 0).val = (DR2.rhsIdx (((cfg2.win 2).blk t).view.emb j) qR 0).val
      have a1 := rhsK2_0 j qK
      have a2 := rhsR2_0 (((cfg2.win 2).blk t).view.emb j) qR
      omega
    | ⟨1, _⟩ =>
      show win2_1.index t (1 : Fin 2) * 40 + 1 * (DK2.rhsIdx j qK 1).val = (DR2.rhsIdx (((cfg2.win 2).blk t).view.emb j) qR 1).val
      have a1 := rhsK2_1 j qK
      have a2 := rhsR2_1 (((cfg2.win 2).blk t).view.emb j) qR
      omega
  rw [h0, h1]

/-! ## The blocks cover the result -/

/-- An index of the result array is in point `t`'s block iff each coordinate is in the block's range on its axis. -/
theorem mem_blk2 (t : Fin cfg2.N) (i : S50000x40.Idx) :
    i ∈ ((cfg2.win 2).blk t).view.set ↔ ∀ a : Fin 2, win2_2.index t a * S5000x40.size a ≤ (i a).val ∧ (i a).val < win2_2.index t a * S5000x40.size a + S5000x40.size a := by
  show i ∈ ((View.whole main_v46).slice (win2_2.rect t)).set ↔ _
  rw [View.set_slice_whole, Rect.mem_set_unit]
  exact Iff.rfl

/-- Row `r` of the result lies in the block of point `r / 5000`, and that point writes its block back. -/
theorem cover2 (i : S50000x40.Idx) : ∃ t : Fin cfg2.N, (cfg2.win 2).flush t = true ∧ i ∈ ((cfg2.win 2).blk t).view.set := by
  have hi0 : (i 0).val < 50000 := (i 0).isLt
  have hi1 : (i 1).val < 40 := (i 1).isLt
  have hN : cfg2.N = 10 := N_2
  obtain ⟨t, ht⟩ : ∃ t : Fin cfg2.N, t.val = (i 0).val / 5000 := ⟨⟨(i 0).val / 5000, by omega⟩, rfl⟩
  obtain ⟨-, -, -, -, e4, e5⟩ := idx_facts2 t
  refine ⟨t, flush2_2 t, ?_⟩
  rw [mem_blk2]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 40 ≤ (i 1).val ∧ (i 1).val < win2_2.index t (1 : Fin 2) * 40 + 40; omega

/-- The result array after the region is the whole dense projection of the region's two operand arrays. -/
theorem region2_array (c : Dev nD) :
    (dat2 (F := Ideal) V c).arrAt 2 cfg2.N = Cert.ReferenceIdeal.Stage.dot40 (F := Ideal) (V c main_v45) (V c main_arg4) :=
  (dat2 (F := Ideal) V c).arrAt_eq_of_cover 2 _ (fun t _ => flushed2_eq V c t) cover2

end Cert.KernelIdeal.Hand

end
-- ==== Proof.Spec.lean ====
/-
  Row formulas over the extended reals, stated with no program in sight, that both programs' last stage is read as.
  A row of 40 scores is first shifted by its largest entry (the maximum taken from minus infinity, so that it is
  defined for every row), then the logarithm of the sum of the shifted entries' exponentials is subtracted:
  the log-softmax of the row. Before that each score has its bias added and is clipped at zero.
-/
import Idealize.ShloMosaic.PureOps.Ideal
import Idealize.ShloMosaic.Lib.ValueIdx

noncomputable section

namespace Cert.Spec

open Idealize.ShloMosaic

/-- A score with its bias added, clipped at zero (the zero is the float pattern of +0). -/
def clip (a b : EReal) : EReal := max (a + b) (Ideal.ofBits .f32 0x00000000#32)

/-- The largest entry of a row of 40, from minus infinity (the float pattern of -inf). -/
def rowMax (y : Fin 40 → EReal) : EReal :=
  (Finset.univ : Finset (Fin 40)).fold max (Ideal.ofBits .f32 0xFF800000#32) y

/-- Entry `q` of the log-softmax of a row of 40. -/
def lsm (y : Fin 40 → EReal) (q : Fin 40) : EReal :=
  (y q - rowMax y) - Ideal.log (∑ k : Fin 40, Ideal.exp (y k - rowMax y))

end Cert.Spec

end
-- ==== Proof.Region3K.lean ====
/-
  The last kernel, read row by row. Its body takes a block of 5000 rows of 40 scores and one bias row; to every score it
  adds the bias of its column and clips the sum at zero; then, row by row, it subtracts the row's largest entry (a
  maximum taken from minus infinity), exponentiates, sums the 40 exponentials, and subtracts the logarithm of that sum:
  the log-softmax of the clipped row. The row maximum and the row sum are each produced as a vector of 5000 entries,
  turned into a one-column matrix and spread over the 40 columns; both steps only repeat the row's value.
  First part: the body's payload at an entry (row, column) of the block is the log-softmax, at that column, of the clipped
  row. Second part: the ten grid points write the ten consecutive blocks of 5000 rows of the result; point t reads rows
  5000 t … 5000 t + 4999 of the score array and the whole bias row, so what it writes back is block t of ONE function of
  the whole arrays (the log-softmax of the clipped row, row by row); the ten blocks cover the result, so the result array
  IS that function.
-/
import proofs.«121526_j37194416783907_1_alg».proof.Proof.Gen.KernelIdeal.Frame
import proofs.«121526_j37194416783907_1_alg».proof.Proof.Stages
import proofs.«121526_j37194416783907_1_alg».proof.Proof.Spec
import Idealize.ShloMosaic.Lib.Pipeline.Value
import Idealize.ShloMosaic.Lib.ValueIdx
import Idealize.ShloMosaic.Lib.ValueLayout
import Idealize.ShloMosaic.PureOps.Ideal
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-! ## The keepdims column forms: a vector as a one-column matrix, and that column spread over the columns -/

/-- A vector of `a` entries viewed as an `[a, 1]` column reads, at `(i, u)`, the vector at `i`: both have row-major position `i`. -/
theorem reg3_cast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column spread to `[a, b]` reads, at `(i, j)`, the column at row `i`. -/
theorem reg3_bcast_col_apply {α : Type} {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- Both together: a vector made a column and spread over the columns repeats its row's entry. -/
theorem reg3_keep_apply {α : Type} (x : S5000.Idx → α) (hsc : S5000.ShapeCasts S5000x1) (hbc : S5000x1.Broadcasts S5000x40)
    (r : Fin 5000) (q : Fin 40) : broadcastTo S5000x40 (shapeCast S5000x1 x hsc) hbc (ix2 r q) = x (ix1 r) :=
  (reg3_bcast_col_apply (shapeCast S5000x1 x hsc) hbc r q).trans (reg3_cast_col_apply x hsc r 0)

/-! ## The two row reductions -/

/-- The reduced index `r` with column `k` put back is the entry `(r, k)`. -/
theorem reg3_lift_row (h : S5000x40.Reduces [1] S5000) (r : Fin 5000) (k : Fin 40) :
    h.lift (ix1 r) k = ix2 r k := by
  funext c; apply Fin.ext
  match c with
  | ⟨0, _⟩ => rfl
  | ⟨1, _⟩ => rfl

/-- The maximum over the columns, from minus infinity, at row `r` is the row's largest entry. -/
theorem reg3_rowmax_apply (y : FVec Ideal S5000x40 .f32) (h : S5000x40.Reduces [1] S5000) (hφ : FKind.Formats .f32)
    (hacc : (0xFF800000#32 : BitVec 32) = FKind.maximumf.neutral .f32 hφ) (r : Fin 5000) :
    multiReduction (F := Ideal) .maximumf [1] S5000 y 0xFF800000#32 h hφ hacc (ix1 r)
      = Cert.Spec.rowMax (fun k => y (ix2 r k)) := by
  refine (Ideal.multiReduction_maximumf_single y _ h hφ hacc (ix1 r)).trans ?_
  have e : (fun k : Fin 40 => y (h.lift (ix1 r) k)) = fun k => y (ix2 r k) :=
    funext fun k => congrArg y (reg3_lift_row h r k)
  exact congrArg (fun f => (Finset.univ : Finset (Fin 40)).fold max (Ideal.ofBits .f32 0xFF800000#32) f) e

/-- The sum over the columns, from zero, at row `r` is the sum of the row's entries. -/
theorem reg3_rowsum_apply (y : FVec Ideal S5000x40 .f32) (h : S5000x40.Reduces [1] S5000) (hφ : FKind.Formats .f32)
    (hacc : (0x00000000#32 : BitVec 32) = FKind.add.neutral .f32 hφ) (r : Fin 5000) :
    multiReduction (F := Ideal) .add [1] S5000 y 0x00000000#32 h hφ hacc (ix1 r) = ∑ k : Fin 40, y (ix2 r k) := by
  refine (Ideal.multiReduction_add_single y _ h hφ hacc (ix1 r)).trans ?_
  exact Finset.sum_congr rfl fun k _ => congrArg y (reg3_lift_row h r k)

/-! ## The body's payload at an entry -/

/-- For ANY block `y` and any block `M` that holds, along row `r`, that row's largest entry: subtracting `M`, then the
    spread logarithm of the row sum of the exponentials, is at entry `(r, q)` the log-softmax of row `r` at `q`. -/
theorem reg3_lsm_of_shift (y M : FVec Ideal S5000x40 .f32) (r : Fin 5000)
    (hM : ∀ k : Fin 40, M (ix2 r k) = Cert.Spec.rowMax (fun k => y (ix2 r k)))
    (h : S5000x40.Reduces [1] S5000) (hφ : FKind.Formats .f32)
    (hadd : (0x00000000#32 : BitVec 32) = FKind.add.neutral .f32 hφ)
    (hsc : S5000.ShapeCasts S5000x1) (hbc : S5000x1.Broadcasts S5000x40) (q : Fin 40) :
    subf (subf y M) (broadcastTo S5000x40 (log (shapeCast S5000x1
        (multiReduction (F := Ideal) .add [1] S5000 (exp (subf y M)) 0x00000000#32 h hφ hadd) hsc)) hbc) (ix2 r q)
      = Cert.Spec.lsm (fun k => y (ix2 r k)) q := by
  have hs : (∑ k : Fin 40, exp (subf y M) (ix2 r k))
      = ∑ k : Fin 40, Ideal.exp (y (ix2 r k) - Cert.Spec.rowMax (fun k => y (ix2 r k))) :=
    Finset.sum_congr rfl fun k _ => by
      show Ideal.exp (y (ix2 r k) - M (ix2 r k)) = _
      rw [hM k]
  rw [subf_apply, subf_apply, hM q, reg3_bcast_col_apply]
  show _ - Ideal.log (shapeCast S5000x1 _ hsc (ix2 r (0 : Fin 1))) = _
  rw [reg3_cast_col_apply, reg3_rowsum_apply, hs]
  rfl

/-- The body's one payload at an entry: the log-softmax of the clipped row. -/
theorem pay3_apply (x0 : Vec Ideal S5000x40 .f32) (x1 : Vec Ideal S1x40 .f32) (r : Fin 5000) (q : Fin 40) :
    k3_pay1 (F := Ideal) x0 x1 (ValueIdx.ix2 r q)
      = Cert.Spec.lsm (fun k => Cert.Spec.clip (x0 (ValueIdx.ix2 r k)) (x1 (ValueIdx.ix2 (0 : Fin 1) k))) q := by
  refine (reg3_lsm_of_shift _ _ r (fun k => (reg3_keep_apply _ _ _ r k).trans (reg3_rowmax_apply _ _ _ _ r)) _ _ _ _ _ q).trans ?_
  refine congrArg (fun f => Cert.Spec.lsm f q) (funext fun k => ?_)
  rw [maximumf_apply, addf_apply, broadcast_apply, shapeCast_self, shapeCast_self, broadcastTo_1b_ab_apply]
  rfl

/-! ## From the ten blocks to the array -/

/-- The zero offsets of a whole-buffer access, as the constant function. -/
theorem reg3_hz : (![0, 0] : Fin 2 → Nat) = fun _ => 0 := funext fun a => by fin_cases a <;> rfl

/-- The index maps over the ten points: the score window and the result window sit at block row `t`, column block 0; the
    bias window at block (0, 0). -/
theorem reg3_idx_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The result as ONE function of the score array and the bias row: at `(r, q)` the log-softmax, at `q`, of row `r`
    with the bias added and clipped at zero. -/
def reg3_G (c : Dev nD) : S50000x40.Idx → EReal := fun i =>
  Cert.Spec.lsm (fun k => Cert.Spec.clip ((V c main_v59 : S50000x40.Idx → EReal) (ix2 (⟨(i 0).val, (i 0).isLt⟩ : Fin 50000) k))
      ((V c main_v60 : S1x40.Idx → EReal) (ix2 (0 : Fin 1) k))) (⟨(i 1).val, (i 1).isLt⟩ : Fin 40)

/-- That function at an index whose coordinates are `p'` and `q`. -/
theorem reg3_G_at (c : Dev nD) (i : S50000x40.Idx) (p' : Fin 50000) (q : Fin 40) (h0 : (i 0).val = p'.val) (h1 : (i 1).val = q.val) :
    reg3_G V c i = Cert.Spec.lsm (fun k => Cert.Spec.clip ((V c main_v59 : S50000x40.Idx → EReal) (ix2 p' k))
      ((V c main_v60 : S1x40.Idx → EReal) (ix2 (0 : Fin 1) k))) q := by
  obtain rfl : p' = ⟨(i 0).val, (i 0).isLt⟩ := Fin.ext h0.symm
  obtain rfl : q = ⟨(i 1).val, (i 1).isLt⟩ := Fin.ext h1.symm
  rfl

/-- The score window's block at point `t` is rows `5000 t … 5000 t + 4999` of the score array. -/
theorem reg3_iblk0_apply (c : Dev nD) (t : Fin cfg3.N) (p : Fin 5000) (k : Fin 40) (p' : Fin 50000)
    (hp : p'.val = 5000 * t.val + p.val) :
    (iblk3 V c 0 t : Vec Ideal S5000x40 .f32) (ix2 p k) = (V c main_v59 : S50000x40.Idx → EReal) (ix2 p' k) := by
  obtain ⟨e0, e1, -⟩ := reg3_idx_facts t
  unfold iblk3
  rw [View.read_apply]
  show V c main_v59 _ = V c main_v59 _
  congr 1
  funext a
  apply Fin.ext
  match a with
  | ⟨0, _⟩ => show win3_0.index t (0 : Fin 2) * 5000 + 1 * p.val = p'.val; rw [e0, hp]; omega
  | ⟨1, _⟩ => show win3_0.index t (1 : Fin 2) * 40 + 1 * k.val = k.val; rw [e1]; omega

/-- The bias window's block at every point is the whole bias row. -/
theorem reg3_iblk1_apply (c : Dev nD) (t : Fin cfg3.N) (u : Fin 1) (k : Fin 40) :
    (iblk3 V c 1 t : Vec Ideal S1x40 .f32) (ix2 u k) = (V c main_v60 : S1x40.Idx → EReal) (ix2 u k) := by
  obtain ⟨-, -, e2, e3, -⟩ := reg3_idx_facts t
  unfold iblk3
  rw [View.read_apply]
  show V c main_v60 _ = V c main_v60 _
  congr 1
  funext a
  apply Fin.ext
  match a with
  | ⟨0, _⟩ => show win3_1.index t (0 : Fin 2) * 1 + 1 * u.val = u.val; rw [e2]; omega
  | ⟨1, _⟩ => show win3_1.index t (1 : Fin 2) * 40 + 1 * k.val = k.val; rw [e3]; omega

/-- What point `t` writes back is block `t` of that one function. -/
theorem reg3_flushed_eq (c : Dev nD) (t : Fin cfg3.N) :
    (dat3 (F := Ideal) V c).flushed 2 t = ((cfg3.win 2).blk t).view.read (Elt Ideal) (reg3_G V c) := by
  show (cfg3.win 2).cut (grid3.coords t) ((dat3 (F := Ideal) V c).after 2 t) = _
  rw [after3_2]
  unfold out3_2
  rw [View.canon_unit_zero reg3_hz]
  simp only [View.ld_unit_zero (S := S5000x40) reg3_hz, View.ld_unit_zero (S := S1x40) reg3_hz]
  obtain ⟨-, -, -, -, e4, e5⟩ := reg3_idx_facts t
  have ht : t.val < 10 := lt_of_lt_of_eq t.isLt N_3
  funext j
  obtain ⟨p, q, rfl⟩ : ∃ (p : Fin 5000) (q : Fin 40), j = ix2 p q := ⟨j 0, j 1, eq_ix2 j⟩
  have hp : 5000 * t.val + p.val < 50000 := by have := p.isLt; omega
  show k3_pay1 (F := Ideal) (iblk3 V c 0 t) (iblk3 V c 1 t) (ix2 p q)
    = reg3_G V c (((cfg3.win 2).blk t).view.emb (ix2 p q))
  refine (pay3_apply (iblk3 V c 0 t) (iblk3 V c 1 t) p q).trans ?_
  refine Eq.trans ?_ (reg3_G_at V c (((cfg3.win 2).blk t).view.emb (ix2 p q)) ⟨5000 * t.val + p.val, hp⟩ q ?_ ?_).symm
  · refine congrArg (fun f => Cert.Spec.lsm f q) (funext fun k => ?_)
    exact congrArg₂ Cert.Spec.clip (reg3_iblk0_apply V c t p k ⟨5000 * t.val + p.val, hp⟩ rfl) (reg3_iblk1_apply V c t 0 k)
  · show win3_2.index t (0 : Fin 2) * 5000 + 1 * p.val = 5000 * t.val + p.val
    rw [e4]; omega
  · show win3_2.index t (1 : Fin 2) * 40 + 1 * q.val = q.val
    rw [e5]; omega

/-- An index of the result is in point `t`'s block iff each coordinate is in the block's range on its axis. -/
theorem reg3_mem_blk (t : Fin cfg3.N) (i : S50000x40.Idx) :
    i ∈ ((cfg3.win 2).blk t).view.set ↔ ∀ a : Fin 2, win3_2.index t a * S5000x40.size a ≤ (i a).val
      ∧ (i a).val < win3_2.index t a * S5000x40.size a + S5000x40.size a := by
  show i ∈ ((View.whole main_v61).slice (win3_2.rect t)).set ↔ _
  rw [View.set_slice_whole, Rect.mem_set_unit]
  exact Iff.rfl

/-- Every row of the result lies in the block of the point its number divided by 5000 names. -/
theorem reg3_cover (i : S50000x40.Idx) :
    ∃ t : Fin cfg3.N, (cfg3.win 2).flush t = true ∧ i ∈ ((cfg3.win 2).blk t).view.set := by
  have hi0 : (i 0).val < 50000 := (i 0).isLt
  have hi1 : (i 1).val < 40 := (i 1).isLt
  obtain ⟨t, ht⟩ : ∃ t : Fin cfg3.N, t.val = (i 0).val / 5000 :=
    ⟨⟨(i 0).val / 5000, lt_of_lt_of_eq (by omega : (i 0).val / 5000 < 10) N_3.symm⟩, rfl⟩
  obtain ⟨-, -, -, -, e4, e5⟩ := reg3_idx_facts t
  refine ⟨t, flush3_2 t, ?_⟩
  rw [reg3_mem_blk]
  intro a
  match a with
  | ⟨0, _⟩ =>
    show win3_2.index t (0 : Fin 2) * 5000 ≤ (i 0).val ∧ (i 0).val < win3_2.index t (0 : Fin 2) * 5000 + 5000
    rw [e4, ht]; omega
  | ⟨1, _⟩ =>
    show win3_2.index t (1 : Fin 2) * 40 ≤ (i 1).val ∧ (i 1).val < win3_2.index t (1 : Fin 2) * 40 + 40
    rw [e5]; omega

/-- So the result array after the last call is that function. -/
theorem reg3_final (c : Dev nD) : (dat3 (F := Ideal) V c).arrAt 2 cfg3.N = reg3_G V c :=
  (dat3 (F := Ideal) V c).arrAt_eq_of_cover 2 (reg3_G V c) (fun t _ => reg3_flushed_eq V c t) reg3_cover

/-- The result array after the last call, entry by entry. -/
theorem region3_rows (c : Dev nD) (i : S50000x40.Idx) :
    (dat3 (F := Ideal) V c).arrAt 2 cfg3.N i
      = Cert.Spec.lsm (fun k => Cert.Spec.clip ((V c main_v59 : S50000x40.Idx → EReal) (ValueIdx.ix2 (⟨(i 0).val, (i 0).isLt⟩ : Fin 50000) k))
                                               ((V c main_v60 : S1x40.Idx → EReal) (ValueIdx.ix2 (0 : Fin 1) k))) (⟨(i 1).val, (i 1).isLt⟩ : Fin 40) :=
  congrFun (reg3_final V c) i

end Cert.KernelIdeal.Hand

end
-- ==== Proof.Region3R.lean ====
/-
  The reference's last stage, read one row at a time.

  The scores entering the stage are y(r, k) = max(a(r, k) + b(k), 0): the bias is a vector spread first to one row and
  then down all rows, the zero a scalar spread everywhere, so at (r, k) each spread reads b(k) and 0.

  The stage first takes, for every row r, M(r) = max(-inf, the maximum over k of y(r, k) taken from -inf). A reduce with a
  commutative, associative body over one axis is, at a result index, the fold of that body from the initial value over
  the coordinates of the dropped axis; the result index r with the coordinate k put back is (r, k), so the inner maximum
  is the fold of max from -inf over the row, and since such a fold is never below the value it starts from, the outer
  max with -inf changes nothing: M(r) is the row's maximum from -inf. M is spread back along the row ([50000] to
  [50000, 1] to [50000, 40]; at (r, k) both spreads read row r), which gives the shifted row z(r, k) = y(r, k) - M(r).

  Then the sum over k of exp z(r, k), taken from 0, is at the exact values 0 plus the plain sum over the row; its
  logarithm, spread back along the row in the same two steps, is subtracted from z(r, q). This is the log-softmax of
  row r at q, as the row formulas state it.
-/
import proofs.«121526_j37194416783907_1_alg».proof.Proof.Stages
import proofs.«121526_j37194416783907_1_alg».proof.Proof.Spec
import Idealize.ShloMosaic.Lib.Pipeline.Value
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic

/-- Row `r` of a 50000 × 40 array. -/
abbrev rowOf (y : FVec Ideal S50000x40 .f32) (r : Fin 50000) : Fin 40 → EReal :=
  fun k => y (ValueIdx.ix2 r k)

/-- A fold of `max` from `b` is at least `b`. -/
theorem max_fold_max_self {ι : Type} (b : EReal) (f : ι → EReal) (s : Finset ι) : max b (s.fold max b f) = s.fold max b f :=
  max_eq_right ((Finset.le_fold_max b).2 (Or.inl le_rfl))

/-- The reduced index `r` with column `k` put back is (r, k). -/
theorem lift_row (h : S50000x40.Reduces [1] S50000) (r : Fin 50000) (k : Fin (S50000x40.size 1)) :
    h.lift (ValueIdx.ix1 r) k = ValueIdx.ix2 r (⟨k.val, k.isLt⟩ : Fin 40) := by
  funext c; apply Fin.ext
  fin_cases c <;> rfl

/-- A column [50000] spread to [50000, 1], read at (r, ·). -/
theorem bcast1_ix2 (v : FVec Ideal S50000 .f32) (r : Fin 50000) (z : Fin 1) :
    broadcastInDim S50000x1 ![0] bcast_S50000_S50000x1_0 v (ValueIdx.ix2 r z) = v (ValueIdx.ix1 r) :=
  broadcastInDim_apply _ bcast_S50000_S50000x1_0 v (ValueIdx.ix2 r z) (ValueIdx.ix1 r) (fun a => match a with
    | ⟨0, _⟩ => by show r.val = if (50000 : Nat) = 1 then 0 else r.val; rw [if_neg (by decide)])

/-- A column [50000, 1] spread along the rows to [50000, 40], read at (r, k). -/
theorem bcast2_ix2 (u : FVec Ideal S50000x1 .f32) (r : Fin 50000) (k : Fin 40) :
    broadcastInDim S50000x40 ![0, 1] bcast_S50000x1_S50000x40_0_1 u (ValueIdx.ix2 r k) = u (ValueIdx.ix2 r (⟨0, Nat.one_pos⟩ : Fin 1)) :=
  broadcastInDim_apply _ bcast_S50000x1_S50000x40_0_1 u (ValueIdx.ix2 r k) (ValueIdx.ix2 r (⟨0, Nat.one_pos⟩ : Fin 1)) (fun a => match a with
    | ⟨0, _⟩ => by show r.val = if (50000 : Nat) = 1 then 0 else r.val; rw [if_neg (by decide)]
    | ⟨1, _⟩ => by show 0 = if (1 : Nat) = 1 then 0 else k.val; rw [if_pos rfl])

/-- The biased, clipped scores at (r, k). -/
theorem biasRelu40_ix2 (a : (⟨S50000x40, .f32⟩ : BufTy).Contents (Elt Ideal)) (b : (⟨S40, .f32⟩ : BufTy).Contents (Elt Ideal)) (r : Fin 50000) (k : Fin 40) :
    Stage.biasRelu40 (F := Ideal) a b (ValueIdx.ix2 r k) = Cert.Spec.clip (a (ValueIdx.ix2 r k)) (b (ValueIdx.ix1 k)) := by
  unfold Stage.biasRelu40 Cert.Spec.clip
  show max (a (ValueIdx.ix2 r k) + broadcastInDim S50000x40 ![0, 1] bcast_S1x40_S50000x40_0_1 (broadcastInDim S1x40 ![1] bcast_S40_S1x40_1 b) (ValueIdx.ix2 r k))
      (broadcastInDim S50000x40 ![] bcast_S_S50000x40 (constant (F := Ideal) S_ .f32 0x00000000#32) (ValueIdx.ix2 r k)) = _
  rw [broadcastInDim_apply _ bcast_S_S50000x40 (constant (F := Ideal) S_ .f32 0x00000000#32) (ValueIdx.ix2 r k) (fun a => a.elim0) (fun a => a.elim0)]
  rw [broadcastInDim_apply _ bcast_S1x40_S50000x40_0_1 (broadcastInDim S1x40 ![1] bcast_S40_S1x40_1 b) (ValueIdx.ix2 r k)
    (ValueIdx.ix2 (⟨0, Nat.one_pos⟩ : Fin 1) k) (fun a => match a with
      | ⟨0, _⟩ => by show 0 = if (1 : Nat) = 1 then 0 else r.val; rw [if_pos rfl]
      | ⟨1, _⟩ => by show k.val = if (40 : Nat) = 1 then 0 else k.val; rw [if_neg (by decide)])]
  rw [broadcastInDim_apply _ bcast_S40_S1x40_1 b (ValueIdx.ix2 (⟨0, Nat.one_pos⟩ : Fin 1) k)
    (ValueIdx.ix1 k) (fun a => match a with
      | ⟨0, _⟩ => by show k.val = if (40 : Nat) = 1 then 0 else k.val; rw [if_neg (by decide)])]
  rfl

/-- The reference's reduce with a maximum body over the columns, from minus infinity, at row `r`: the fold of `max` over the row. -/
theorem reduceMax_ix1 (y : FVec Ideal S50000x40 .f32) (h : S50000x40.Reduces [1] S50000) (r : Fin 50000) :
    Host.reduce (FloatOps.maximumf (F := Ideal) (φ := .f32)) y (constant (F := Ideal) S_ .f32 0xFF800000#32) reducesTo_S50000x40_S50000_d1 h_S_ (ValueIdx.ix1 r)
      = (Finset.univ : Finset (Fin 40)).fold max (Ideal.ofBits .f32 0xFF800000#32) (rowOf y r) := by
  have e := Host.reduce_eq_fold_single (s := S50000x40) (t := S50000) (a := 1) (u := S_) (α := Ideal .f32) (FloatOps.maximumf (F := Ideal) (φ := .f32)) y (constant (F := Ideal) S_ .f32 0xFF800000#32) reducesTo_S50000x40_S50000_d1 h h_S_ (ValueIdx.ix1 r)
  rw [e]
  have hf : (y ∘ h.lift (ValueIdx.ix1 r)) = rowOf y r := funext fun k => congrArg y (lift_row h r k)
  rw [hf]
  rfl

/-- The maximum of the constant minus infinity and a column `m`, at row `r`. -/
theorem max_bcast_ix1 (m : FVec Ideal S50000 .f32) (r : Fin 50000) :
    maximumf (F := Ideal) (broadcastInDim S50000 ![] bcast_S_S50000 (constant (F := Ideal) S_ .f32 0xFF800000#32)) m (ValueIdx.ix1 r)
      = max (Ideal.ofBits .f32 0xFF800000#32) (m (ValueIdx.ix1 r)) := by
  show max (broadcastInDim S50000 ![] bcast_S_S50000 (constant (F := Ideal) S_ .f32 0xFF800000#32) (ValueIdx.ix1 r)) (m (ValueIdx.ix1 r)) = _
  rw [broadcastInDim_apply _ bcast_S_S50000 (constant (F := Ideal) S_ .f32 0xFF800000#32) (ValueIdx.ix1 r) (fun a => a.elim0) (fun a => a.elim0)]
  rfl

/-- A row minus its maximum, at (r, k). -/
theorem shifted_ix2 (y : FVec Ideal S50000x40 .f32) (r : Fin 50000) (k : Fin 40) :
    Stage.shifted (F := Ideal) y (ValueIdx.ix2 r k) = y (ValueIdx.ix2 r k) - Cert.Spec.rowMax (rowOf y r) := by
  unfold Stage.shifted
  have hr := reduceMax_ix1 y (by decide) r
  generalize Host.reduce (FloatOps.maximumf (F := Ideal) (φ := .f32)) y (constant (F := Ideal) S_ .f32 0xFF800000#32) reducesTo_S50000x40_S50000_d1 h_S_ = m at hr ⊢
  show y (ValueIdx.ix2 r k) - broadcastInDim S50000x40 ![0, 1] bcast_S50000x1_S50000x40_0_1 (broadcastInDim S50000x1 ![0] bcast_S50000_S50000x1_0
      (maximumf (F := Ideal) (broadcastInDim S50000 ![] bcast_S_S50000 (constant (F := Ideal) S_ .f32 0xFF800000#32)) m)) (ValueIdx.ix2 r k) = _
  rw [bcast2_ix2, bcast1_ix2, max_bcast_ix1, hr]
  unfold Cert.Spec.rowMax
  rw [max_fold_max_self]

/-- The reference's sum over the columns from zero, at row `r`: the plain sum over the row. -/
theorem reduceAdd_ix1 (x : FVec Ideal S50000x40 .f32) (r : Fin 50000) :
    Host.reduceAdd (F := Ideal) x (constant (F := Ideal) S_ .f32 0x00000000#32) reducesTo_S50000x40_S50000_d1 h_S_ (ValueIdx.ix1 r)
      = ∑ k : Fin 40, x (ValueIdx.ix2 r k) := by
  have h : S50000x40.Reduces [1] S50000 := by decide
  simp only [Host.reduceAdd, Ideal.hostReduceAdd_def]
  rw [Ideal.hostReduceAdd_single reducesTo_S50000x40_S50000_d1 h]
  show Ideal.ofBits .f32 0x00000000#32 + _ = _
  rw [Ideal.ofBits_zero_f32, zero_add]
  exact Finset.sum_congr rfl fun k _ => congrArg x (lift_row h r k)

/-- The row-wise log-softmax at (r, q). -/
theorem logSoftmax_ix2 (y : FVec Ideal S50000x40 .f32) (r : Fin 50000) (q : Fin 40) :
    Stage.logSoftmax (F := Ideal) y (ValueIdx.ix2 r q) = Cert.Spec.lsm (rowOf y r) q := by
  unfold Stage.logSoftmax
  have hs : ∀ k : Fin 40, Stage.shifted (F := Ideal) y (ValueIdx.ix2 r k) = y (ValueIdx.ix2 r k) - Cert.Spec.rowMax (rowOf y r) :=
    fun k => shifted_ix2 y r k
  generalize Stage.shifted (F := Ideal) y = z at hs ⊢
  have hw := reduceAdd_ix1 (Host.exp z) r
  generalize Host.reduceAdd (F := Ideal) (Host.exp z) (constant (F := Ideal) S_ .f32 0x00000000#32) reducesTo_S50000x40_S50000_d1 h_S_ = w at hw ⊢
  show z (ValueIdx.ix2 r q) - broadcastInDim S50000x40 ![0, 1] bcast_S50000x1_S50000x40_0_1
      (Host.log (broadcastInDim S50000x1 ![0] bcast_S50000_S50000x1_0 w)) (ValueIdx.ix2 r q) = _
  rw [bcast2_ix2]
  show z (ValueIdx.ix2 r q) - Ideal.log (broadcastInDim S50000x1 ![0] bcast_S50000_S50000x1_0 w (ValueIdx.ix2 r (⟨0, Nat.one_pos⟩ : Fin 1))) = _
  rw [bcast1_ix2, hw, hs q]
  unfold Cert.Spec.lsm
  refine congrArg (fun t => (y (ValueIdx.ix2 r q) - Cert.Spec.rowMax (rowOf y r)) - Ideal.log t) (Finset.sum_congr rfl fun k _ => ?_)
  show Ideal.exp (z (ValueIdx.ix2 r k)) = _
  rw [hs k]

/-- The reference's last stage on the biased, clipped scores, read row by row. -/
theorem logSoftmax_apply (a : (⟨S50000x40, .f32⟩ : BufTy).Contents (Elt Ideal)) (b : (⟨S40, .f32⟩ : BufTy).Contents (Elt Ideal)) (i : S50000x40.Idx) :
    Stage.logSoftmax (F := Ideal) (Stage.biasRelu40 (F := Ideal) a b) i
      = Cert.Spec.lsm (fun k => Cert.Spec.clip (a (ValueIdx.ix2 (⟨(i 0).val, (i 0).isLt⟩ : Fin 50000) k)) (b (ValueIdx.ix1 k))) (⟨(i 1).val, (i 1).isLt⟩ : Fin 40) := by
  obtain ⟨r, q, rfl⟩ : ∃ (r : Fin 50000) (q : Fin 40), i = ValueIdx.ix2 r q :=
    ⟨⟨(i 0).val, (i 0).isLt⟩, ⟨(i 1).val, (i 1).isLt⟩, by funext c; match c with | ⟨0, _⟩ => rfl | ⟨1, _⟩ => rfl⟩
  show _ = Cert.Spec.lsm (fun k => Cert.Spec.clip (a (ValueIdx.ix2 r k)) (b (ValueIdx.ix1 k))) q
  rw [logSoftmax_ix2 (Stage.biasRelu40 (F := Ideal) a b) r q]
  exact congrArg (fun f => Cert.Spec.lsm f q) (funext fun k => biasRelu40_ix2 a b r k)

end Cert.ReferenceIdeal.Hand

end
-- ==== Proof.KernelValue.lean ====
/-
  The idealized kernel program's result buffer as one function of the six arguments. Between the pallas calls the host
  computes, once, the edge list with its self-loops, the degrees and the edge weights, and after each dense projection
  gathers the projected rows along the edges, scales them and adds them into their destinations: the reference's own
  stage functions, applied to whatever the call before left. Each call's result array is read from its own
  module: the first and third calls leave the dense projection of what they read, the
  second the bias-and-clip, the fourth the bias-and-clip followed by the row-wise log-softmax. What no operation and no
  call writes — the arguments, the edge list, the edge weights — is carried unchanged from one boundary to the next.
-/
import proofs.«121526_j37194416783907_1_alg».proof.Proof.Gen.KernelIdeal.Frame
import proofs.«121526_j37194416783907_1_alg».proof.Proof.Stages
import proofs.«121526_j37194416783907_1_alg».proof.Proof.Region0
import proofs.«121526_j37194416783907_1_alg».proof.Proof.Region1
import proofs.«121526_j37194416783907_1_alg».proof.Proof.Region2
import proofs.«121526_j37194416783907_1_alg».proof.Proof.Region3K
import proofs.«121526_j37194416783907_1_alg».proof.Proof.Region3R
import Idealize.ShloMosaic.Lib.StableHlo.Run
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.Pipeline (Dat)

open Idealize.ShloMosaic.StableHlo

/-! ## Before the first call (at any float instance) -/

section Generic
variable {F : FTy → Type} [FloatOps F]
variable (m : (ℓ : Loc nD τ sig) → Buf (Elt F) ℓ) (ρ : Dev nD → PrngReg)

/-- The sources followed by the self-loops, as the second stretch of host operations finds them. -/
theorem W2_src (c : Dev nD) : W2 m ρ c (Proc.devRef .tc main_v3) = Cert.ReferenceIdeal.Stage.srcOf (m ((c : Thread nD τ).loc main_arg1)) := by
  show after hostOps0_1 (after hostOps0 (W0 m ρ c)) (Proc.devRef .tc main_v3) = _
  after_results_simp
  rfl
/-- The destinations followed by the self-loops. -/
theorem W2_dst (c : Dev nD) : W2 m ρ c (Proc.devRef .tc main_v6) = Cert.ReferenceIdeal.Stage.dstOf (m ((c : Thread nD τ).loc main_arg1)) := by
  show after hostOps0_1 (after hostOps0 (W0 m ρ c)) (Proc.devRef .tc main_v6) = _
  after_results_simp
  rfl
set_option maxHeartbeats 2000000 in
/-- The inverse square-root degrees, zero where the degree is not positive. -/
theorem W2_dinv (c : Dev nD) : W2 m ρ c (Proc.devRef .tc main_v14) = Cert.ReferenceIdeal.Stage.degInv (m ((c : Thread nD τ).loc main_arg1)) := by
  show after hostOps0_1 (after hostOps0 (W0 m ρ c)) (Proc.devRef .tc main_v14) = _
  after_results_simp
  rfl

set_option maxHeartbeats 2000000 in
/-- The edge weights: the third stretch reads the edge list and the inverse square-root degrees the second left. -/
theorem W3_norm (c : Dev nD) : W3 m ρ c (Proc.devRef .tc main_v29) = Cert.ReferenceIdeal.Stage.normOf (m ((c : Thread nD τ).loc main_arg1)) := by
  have e14 := W2_dinv m ρ c
  have e3 := W2_src m ρ c
  have e6 := W2_dst m ρ c
  show after hostOps0_2 (W2 m ρ c) (Proc.devRef .tc main_v29) = _
  generalize W2 m ρ c = Wx at e14 e3 e6 ⊢
  after_results_simp
  rw [e14, e3, e6]
  rfl
theorem W3_src (c : Dev nD) : W3 m ρ c (Proc.devRef .tc main_v3) = Cert.ReferenceIdeal.Stage.srcOf (m ((c : Thread nD τ).loc main_arg1)) := by
  show after hostOps0_2 (after hostOps0_1 (after hostOps0 (W0 m ρ c))) (Proc.devRef .tc main_v3) = _
  after_results_simp
  rfl
theorem W3_dst (c : Dev nD) : W3 m ρ c (Proc.devRef .tc main_v6) = Cert.ReferenceIdeal.Stage.dstOf (m ((c : Thread nD τ).loc main_arg1)) := by
  show after hostOps0_2 (after hostOps0_1 (after hostOps0 (W0 m ρ c))) (Proc.devRef .tc main_v6) = _
  after_results_simp
  rfl
theorem W3_arg0 (c : Dev nD) : W3 m ρ c (Proc.devRef .tc main_arg0) = (m ((c : Thread nD τ).loc main_arg0)) := by
  show after hostOps0_2 (after hostOps0_1 (after hostOps0 (W0 m ρ c))) (Proc.devRef .tc main_arg0) = _
  after_results_simp <;> rfl
theorem W3_arg2 (c : Dev nD) : W3 m ρ c (Proc.devRef .tc main_arg2) = (m ((c : Thread nD τ).loc main_arg2)) := by
  show after hostOps0_2 (after hostOps0_1 (after hostOps0 (W0 m ρ c))) (Proc.devRef .tc main_arg2) = _
  after_results_simp <;> rfl
theorem W3_arg3 (c : Dev nD) : W3 m ρ c (Proc.devRef .tc main_arg3) = (m ((c : Thread nD τ).loc main_arg3)) := by
  show after hostOps0_2 (after hostOps0_1 (after hostOps0 (W0 m ρ c))) (Proc.devRef .tc main_arg3) = _
  after_results_simp <;> rfl
theorem W3_arg4 (c : Dev nD) : W3 m ρ c (Proc.devRef .tc main_arg4) = (m ((c : Thread nD τ).loc main_arg4)) := by
  show after hostOps0_2 (after hostOps0_1 (after hostOps0 (W0 m ρ c))) (Proc.devRef .tc main_arg4) = _
  after_results_simp <;> rfl
theorem W3_arg5 (c : Dev nD) : W3 m ρ c (Proc.devRef .tc main_arg5) = (m ((c : Thread nD τ).loc main_arg5)) := by
  show after hostOps0_2 (after hostOps0_1 (after hostOps0 (W0 m ρ c))) (Proc.devRef .tc main_arg5) = _
  after_results_simp <;> rfl

/-! ## Across the first call: what it does not write -/

theorem W4_src (c : Dev nD) : W4 m ρ c (Proc.devRef .tc main_v3) = W3 m ρ c (Proc.devRef .tc main_v3) := W4_of_ne m ρ c main_v3 (by decide)
theorem W4_dst (c : Dev nD) : W4 m ρ c (Proc.devRef .tc main_v6) = W3 m ρ c (Proc.devRef .tc main_v6) := W4_of_ne m ρ c main_v6 (by decide)
theorem W4_norm (c : Dev nD) : W4 m ρ c (Proc.devRef .tc main_v29) = W3 m ρ c (Proc.devRef .tc main_v29) := W4_of_ne m ρ c main_v29 (by decide)
theorem W4_arg3 (c : Dev nD) : W4 m ρ c (Proc.devRef .tc main_arg3) = W3 m ρ c (Proc.devRef .tc main_arg3) := W4_of_ne m ρ c main_arg3 (by decide)
theorem W4_arg4 (c : Dev nD) : W4 m ρ c (Proc.devRef .tc main_arg4) = W3 m ρ c (Proc.devRef .tc main_arg4) := W4_of_ne m ρ c main_arg4 (by decide)
theorem W4_arg5 (c : Dev nD) : W4 m ρ c (Proc.devRef .tc main_arg5) = W3 m ρ c (Proc.devRef .tc main_arg5) := W4_of_ne m ρ c main_arg5 (by decide)

/-! ## After the first call: the first round of message passing, and the bias as one row -/

set_option maxHeartbeats 2000000 in
/-- The projected rows gathered along the edges, scaled, added into their destinations. -/
theorem W5_agg (c : Dev nD) : W5 m ρ c (Proc.devRef .tc main_v43) = Cert.ReferenceIdeal.Stage.agg128 (W4 m ρ c (Proc.devRef .tc main_v30)) (m ((c : Thread nD τ).loc main_arg1)) := by
  show after hostOps1 (W4 m ρ c) (Proc.devRef .tc main_v43) = _
  after_results_simp
  rw [W4_src m ρ c, W4_dst m ρ c, W4_norm m ρ c, W3_src m ρ c, W3_dst m ρ c, W3_norm m ρ c]
  rfl
/-- The first bias, recast as one row. -/
theorem W5_bias (c : Dev nD) : W5 m ρ c (Proc.devRef .tc main_v44) = shapeCast S1x128 (m ((c : Thread nD τ).loc main_arg3)) shapeCasts_S128_S1x128 := by
  show after hostOps1 (W4 m ρ c) (Proc.devRef .tc main_v44) = _
  after_results_simp
  rw [W4_arg3 m ρ c, W3_arg3 m ρ c]
  rfl
theorem W5_src (c : Dev nD) : W5 m ρ c (Proc.devRef .tc main_v3) = W4 m ρ c (Proc.devRef .tc main_v3) := by
  show after hostOps1 (W4 m ρ c) (Proc.devRef .tc main_v3) = _
  after_results_simp
theorem W5_dst (c : Dev nD) : W5 m ρ c (Proc.devRef .tc main_v6) = W4 m ρ c (Proc.devRef .tc main_v6) := by
  show after hostOps1 (W4 m ρ c) (Proc.devRef .tc main_v6) = _
  after_results_simp
theorem W5_norm (c : Dev nD) : W5 m ρ c (Proc.devRef .tc main_v29) = W4 m ρ c (Proc.devRef .tc main_v29) := by
  show after hostOps1 (W4 m ρ c) (Proc.devRef .tc main_v29) = _
  after_results_simp
theorem W5_arg4 (c : Dev nD) : W5 m ρ c (Proc.devRef .tc main_arg4) = W4 m ρ c (Proc.devRef .tc main_arg4) := by
  show after hostOps1 (W4 m ρ c) (Proc.devRef .tc main_arg4) = _
  after_results_simp
theorem W5_arg5 (c : Dev nD) : W5 m ρ c (Proc.devRef .tc main_arg5) = W4 m ρ c (Proc.devRef .tc main_arg5) := by
  show after hostOps1 (W4 m ρ c) (Proc.devRef .tc main_arg5) = _
  after_results_simp

/-! ## Across the second and third calls -/

theorem W6_src (c : Dev nD) : W6 m ρ c (Proc.devRef .tc main_v3) = W5 m ρ c (Proc.devRef .tc main_v3) := W6_of_ne m ρ c main_v3 (by decide)
theorem W6_dst (c : Dev nD) : W6 m ρ c (Proc.devRef .tc main_v6) = W5 m ρ c (Proc.devRef .tc main_v6) := W6_of_ne m ρ c main_v6 (by decide)
theorem W6_norm (c : Dev nD) : W6 m ρ c (Proc.devRef .tc main_v29) = W5 m ρ c (Proc.devRef .tc main_v29) := W6_of_ne m ρ c main_v29 (by decide)
theorem W6_arg4 (c : Dev nD) : W6 m ρ c (Proc.devRef .tc main_arg4) = W5 m ρ c (Proc.devRef .tc main_arg4) := W6_of_ne m ρ c main_arg4 (by decide)
theorem W6_arg5 (c : Dev nD) : W6 m ρ c (Proc.devRef .tc main_arg5) = W5 m ρ c (Proc.devRef .tc main_arg5) := W6_of_ne m ρ c main_arg5 (by decide)
theorem W7_src (c : Dev nD) : W7 m ρ c (Proc.devRef .tc main_v3) = W6 m ρ c (Proc.devRef .tc main_v3) := W7_of_ne m ρ c main_v3 (by decide)
theorem W7_dst (c : Dev nD) : W7 m ρ c (Proc.devRef .tc main_v6) = W6 m ρ c (Proc.devRef .tc main_v6) := W7_of_ne m ρ c main_v6 (by decide)
theorem W7_norm (c : Dev nD) : W7 m ρ c (Proc.devRef .tc main_v29) = W6 m ρ c (Proc.devRef .tc main_v29) := W7_of_ne m ρ c main_v29 (by decide)
theorem W7_arg5 (c : Dev nD) : W7 m ρ c (Proc.devRef .tc main_arg5) = W6 m ρ c (Proc.devRef .tc main_arg5) := W7_of_ne m ρ c main_arg5 (by decide)

theorem W7_src' (c : Dev nD) : W7 m ρ c (Proc.devRef .tc main_v3) = Cert.ReferenceIdeal.Stage.srcOf (m ((c : Thread nD τ).loc main_arg1)) := by
  rw [W7_src, W6_src, W5_src, W4_src, W3_src]
theorem W7_dst' (c : Dev nD) : W7 m ρ c (Proc.devRef .tc main_v6) = Cert.ReferenceIdeal.Stage.dstOf (m ((c : Thread nD τ).loc main_arg1)) := by
  rw [W7_dst, W6_dst, W5_dst, W4_dst, W3_dst]
theorem W7_norm' (c : Dev nD) : W7 m ρ c (Proc.devRef .tc main_v29) = Cert.ReferenceIdeal.Stage.normOf (m ((c : Thread nD τ).loc main_arg1)) := by
  rw [W7_norm, W6_norm, W5_norm, W4_norm, W3_norm]
theorem W7_arg5' (c : Dev nD) : W7 m ρ c (Proc.devRef .tc main_arg5) = (m ((c : Thread nD τ).loc main_arg5)) := by
  rw [W7_arg5, W6_arg5, W5_arg5, W4_arg5, W3_arg5]
theorem W6_arg4' (c : Dev nD) : W6 m ρ c (Proc.devRef .tc main_arg4) = (m ((c : Thread nD τ).loc main_arg4)) := by
  rw [W6_arg4, W5_arg4, W4_arg4, W3_arg4]

/-! ## After the third call: the second round of message passing, and the bias as one row -/

set_option maxHeartbeats 2000000 in
theorem W8_agg (c : Dev nD) : W8 m ρ c (Proc.devRef .tc main_v59) = Cert.ReferenceIdeal.Stage.agg40 (W7 m ρ c (Proc.devRef .tc main_v46)) (m ((c : Thread nD τ).loc main_arg1)) := by
  show after hostOps3 (W7 m ρ c) (Proc.devRef .tc main_v59) = _
  after_results_simp
  rw [W7_src' m ρ c, W7_dst' m ρ c, W7_norm' m ρ c]
  rfl
theorem W8_bias (c : Dev nD) : W8 m ρ c (Proc.devRef .tc main_v60) = shapeCast S1x40 (m ((c : Thread nD τ).loc main_arg5)) shapeCasts_S40_S1x40 := by
  show after hostOps3 (W7 m ρ c) (Proc.devRef .tc main_v60) = _
  after_results_simp
  rw [W7_arg5' m ρ c]
  rfl

end Generic

/-! ## The four calls, and the result -/

section AtIdeal
variable (m : (ℓ : Loc nD τ sig) → Buf (Elt Ideal) ℓ) (ρ : Dev nD → PrngReg)

/-- The last call's result array as the reference's last two stages of what the call reads: its rows are the
    log-softmax of the clipped rows on the kernel's side and on the reference's, and the bias row the call reads is the
    bias vector recast as one row. -/
theorem region3_array (V : (c : Dev nD) → (b : Ref sig .tc) → Buf (Elt Ideal) ((c : Thread nD τ).loc b)) (c : Dev nD)
    (b : (⟨Cert.ReferenceIdeal.S40, .f32⟩ : BufTy).Contents (Elt Ideal))
    (hb : V c main_v60 = shapeCast S1x40 b shapeCasts_S40_S1x40) :
    (dat3 (F := Ideal) V c).arrAt 2 cfg3.N
      = Cert.ReferenceIdeal.Stage.logSoftmax (F := Ideal) (Cert.ReferenceIdeal.Stage.biasRelu40 (F := Ideal) (V c main_v59) b) := by
  funext i
  rw [region3_rows V c i, Cert.ReferenceIdeal.Hand.logSoftmax_apply (V c main_v59) b i]
  congr 1
  funext k
  congr 1
  rw [hb]
  refine shapeCast_apply b shapeCasts_S40_S1x40 _ _ ?_
  rw [Shape.rowMajor_val_one, Shape.rowMajor_val_two]
  show k.val = 0 * 40 + k.val
  omega

/-- After the first call: the first dense projection. -/
theorem W4_h (c : Dev nD) : W4 m ρ c (Proc.devRef .tc main_v30) = Cert.ReferenceIdeal.Stage.dot128 (F := Ideal) (m ((c : Thread nD τ).loc main_arg0)) (m ((c : Thread nD τ).loc main_arg2)) := by
  rw [show W4 m ρ c (Proc.devRef .tc main_v30) = (dat0 (V3 m ρ) c).arrAt 2 cfg0.N from W4_arr m ρ c 2, region0_array (V3 m ρ) c]
  show Cert.ReferenceIdeal.Stage.dot128 (F := Ideal) (W3 m ρ c (Proc.devRef .tc main_arg0)) (W3 m ρ c (Proc.devRef .tc main_arg2)) = _
  rw [W3_arg0 m ρ c, W3_arg2 m ρ c]

/-- After the second call: the first layer's output. -/
theorem W6_relu (c : Dev nD) : W6 m ρ c (Proc.devRef .tc main_v45) = Cert.ReferenceIdeal.Stage.biasRelu128 (F := Ideal) (Cert.ReferenceIdeal.Stage.agg128 (F := Ideal) (Cert.ReferenceIdeal.Stage.dot128 (F := Ideal) (m ((c : Thread nD τ).loc main_arg0)) (m ((c : Thread nD τ).loc main_arg2))) (m ((c : Thread nD τ).loc main_arg1))) (m ((c : Thread nD τ).loc main_arg3)) := by
  rw [show W6 m ρ c (Proc.devRef .tc main_v45) = (dat1 (V5 m ρ) c).arrAt 2 cfg1.N from W6_arr m ρ c 2,
    region1_array (V5 m ρ) c (m ((c : Thread nD τ).loc main_arg3)) (W5_bias m ρ c)]
  show Cert.ReferenceIdeal.Stage.biasRelu128 (F := Ideal) (W5 m ρ c (Proc.devRef .tc main_v43)) (m ((c : Thread nD τ).loc main_arg3)) = _
  rw [W5_agg m ρ c, W4_h m ρ c]

/-- After the third call: the second dense projection. -/
theorem W7_h (c : Dev nD) : W7 m ρ c (Proc.devRef .tc main_v46) = Cert.ReferenceIdeal.Stage.dot40 (F := Ideal) (Cert.ReferenceIdeal.Stage.biasRelu128 (F := Ideal) (Cert.ReferenceIdeal.Stage.agg128 (F := Ideal) (Cert.ReferenceIdeal.Stage.dot128 (F := Ideal) (m ((c : Thread nD τ).loc main_arg0)) (m ((c : Thread nD τ).loc main_arg2))) (m ((c : Thread nD τ).loc main_arg1))) (m ((c : Thread nD τ).loc main_arg3))) (m ((c : Thread nD τ).loc main_arg4)) := by
  rw [show W7 m ρ c (Proc.devRef .tc main_v46) = (dat2 (V6 m ρ) c).arrAt 2 cfg2.N from W7_arr m ρ c 2, region2_array (V6 m ρ) c]
  show Cert.ReferenceIdeal.Stage.dot40 (F := Ideal) (W6 m ρ c (Proc.devRef .tc main_v45)) (W6 m ρ c (Proc.devRef .tc main_arg4)) = _
  rw [W6_relu m ρ c, W6_arg4' m ρ c]

/-- After the fourth call: the result buffer holds the whole network's function of the six arguments. -/
theorem kernel_result (c : Dev nD) : W9 m ρ c (Proc.devRef .tc main_v61)
    = Cert.ReferenceIdeal.Stage.whole (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  rw [show W9 m ρ c (Proc.devRef .tc main_v61) = (dat3 (V8 m ρ) c).arrAt 2 cfg3.N from W9_arr m ρ c 2,
    region3_array (V8 m ρ) c (m ((c : Thread nD τ).loc main_arg5)) (W8_bias m ρ c)]
  show Cert.ReferenceIdeal.Stage.logSoftmax (F := Ideal) (Cert.ReferenceIdeal.Stage.biasRelu40 (F := Ideal) (W8 m ρ c (Proc.devRef .tc main_v59)) (m ((c : Thread nD τ).loc main_arg5))) = _
  rw [W8_agg m ρ c, W7_h m ρ c]
  rfl

end AtIdeal

end Cert.KernelIdeal.Hand

end
-- ==== Proof.RefRun.lean ====
/-
  The reference program's run, read back stage by stage. Its @main is a straight line of 120 host operations; cut after
  the edge list and the inverse square-root degrees, after each dense projection, after each computation of the edge
  weights, after each round of message passing, after each bias-and-clip, it is ten short lines, and what each line leaves
  in the one or two buffers the later lines read is one stage function (Proof/Stages.lean) of what the line found in
  the buffers it reads. Composed, the result buffer ends at the whole network's function of the six arguments, which no
  operation writes.
-/
import proofs.«121526_j37194416783907_1_alg».proof.Proof.RefOps
import proofs.«121526_j37194416783907_1_alg».proof.Proof.Stages

set_option maxRecDepth 16384

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.ReferenceIdeal.ValueP (ops main_eq ops_sub scopedRefs_eq scopedSems_eq)

variable {F : FTy → Type} [FloatOps F]

/-! ## The line, cut in ten -/

abbrev s0 : List (HloOp τ sig (Elt F)) :=
  [ nullary main_v0 (iotaInDim S50000 32 0),
    unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    reshape main_v1 main_v2 rfl shapeCasts_S1x800000_S800000,
    binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    reshape main_v4 main_v5 rfl shapeCasts_S1x800000_S800000,
    binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    nullary main_cst (constant S_ .f32 0x3F800000#32),
    unary main_cst main_v7 (broadcastInDim S850000 ![] bcast_S_S850000 : (⟨S_, .f32⟩ : BufTy).Contents (Elt F) → (⟨S850000, .f32⟩ : BufTy).Contents (Elt F)),
    nullary main_cst_0 (constant S_ .f32 0x00000000#32),
    unary main_cst_0 main_v8 (broadcastInDim S50000 ![] bcast_S_S50000 : (⟨S_, .f32⟩ : BufTy).Contents (Elt F) → (⟨S50000, .f32⟩ : BufTy).Contents (Elt F)),
    unary main_v6 main_v9 (broadcastInDim S850000x1 ![0] bcast_S850000_S850000x1_0 : (⟨S850000, .i32⟩ : BufTy).Contents (Elt F) → (⟨S850000x1, .i32⟩ : BufTy).Contents (Elt F)),
    ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    nullary main_cst_1 (constant S_ .f32 0x00000000#32),
    unary main_cst_1 main_v11 (broadcastInDim S50000 ![] bcast_S_S50000 : (⟨S_, .f32⟩ : BufTy).Contents (Elt F) → (⟨S50000, .f32⟩ : BufTy).Contents (Elt F)),
    binary main_v10 main_v11 main_v12 (cmpf .ogt : (⟨S50000, .f32⟩ : BufTy).Contents (Elt F) → (⟨S50000, .f32⟩ : BufTy).Contents (Elt F) → (⟨S50000, .i1⟩ : BufTy).Contents (Elt F)),
    unary main_v10 main_v13 (Host.rsqrt : (⟨S50000, .f32⟩ : BufTy).Contents (Elt F) → (⟨S50000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S50000, .f32⟩) main_call0_v1) (broadcastInDim S50000 ![] bcast_S_S50000),
    TRef.ternary (TRef.of (T := ⟨S50000, .i1⟩) main_v12) (TRef.of (T := ⟨S50000, .f32⟩) main_v13) (TRef.of (T := ⟨S50000, .f32⟩) main_call0_v1) (TRef.of (T := ⟨S50000, .f32⟩) main_v14) select ]

abbrev s1 : List (HloOp τ sig (Elt F)) :=
  [ binary main_arg0 main_arg2 main_v15 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

abbrev s2 : List (HloOp τ sig (Elt F)) :=
  [ nullary main_c (constantI S_ 32 0#32),
    unary main_c main_v16 (broadcastInDim S850000 ![] bcast_S_S850000 : (⟨S_, .i32⟩ : BufTy).Contents (Elt F) → (⟨S850000, .i32⟩ : BufTy).Contents (Elt F)),
    binary main_v3 main_v16 main_v17 (cmpi .slt : (⟨S850000, .i32⟩ : BufTy).Contents (Elt F) → (⟨S850000, .i32⟩ : BufTy).Contents (Elt F) → (⟨S850000, .i1⟩ : BufTy).Contents (Elt F)),
    nullary main_c_3 (constantI S_ 32 50000#32),
    unary main_c_3 main_v18 (broadcastInDim S850000 ![] bcast_S_S850000 : (⟨S_, .i32⟩ : BufTy).Contents (Elt F) → (⟨S850000, .i32⟩ : BufTy).Contents (Elt F)),
    binary main_v3 main_v18 main_v19 (addi : (⟨S850000, .i32⟩ : BufTy).Contents (Elt F) → (⟨S850000, .i32⟩ : BufTy).Contents (Elt F) → (⟨S850000, .i32⟩ : BufTy).Contents (Elt F)),
    ternary main_v17 main_v19 main_v3 main_v20 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v20 main_v21 (broadcastInDim S850000x1 ![0] bcast_S850000_S850000x1_0 : (⟨S850000, .i32⟩ : BufTy).Contents (Elt F) → (⟨S850000x1, .i32⟩ : BufTy).Contents (Elt F)),
    binary main_v14 main_v21 main_v22 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_4 (constantI S_ 32 0#32),
    unary main_c_4 main_v23 (broadcastInDim S850000 ![] bcast_S_S850000 : (⟨S_, .i32⟩ : BufTy).Contents (Elt F) → (⟨S850000, .i32⟩ : BufTy).Contents (Elt F)),
    binary main_v6 main_v23 main_v24 (cmpi .slt : (⟨S850000, .i32⟩ : BufTy).Contents (Elt F) → (⟨S850000, .i32⟩ : BufTy).Contents (Elt F) → (⟨S850000, .i1⟩ : BufTy).Contents (Elt F)),
    nullary main_c_5 (constantI S_ 32 50000#32),
    unary main_c_5 main_v25 (broadcastInDim S850000 ![] bcast_S_S850000 : (⟨S_, .i32⟩ : BufTy).Contents (Elt F) → (⟨S850000, .i32⟩ : BufTy).Contents (Elt F)),
    binary main_v6 main_v25 main_v26 (addi : (⟨S850000, .i32⟩ : BufTy).Contents (Elt F) → (⟨S850000, .i32⟩ : BufTy).Contents (Elt F) → (⟨S850000, .i32⟩ : BufTy).Contents (Elt F)),
    ternary main_v24 main_v26 main_v6 main_v27 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v27 main_v28 (broadcastInDim S850000x1 ![0] bcast_S850000_S850000x1_0 : (⟨S850000, .i32⟩ : BufTy).Contents (Elt F) → (⟨S850000x1, .i32⟩ : BufTy).Contents (Elt F)),
    binary main_v14 main_v28 main_v29 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v22 main_v29 main_v30 (mulf : (⟨S850000, .f32⟩ : BufTy).Contents (Elt F) → (⟨S850000, .f32⟩ : BufTy).Contents (Elt F) → (⟨S850000, .f32⟩ : BufTy).Contents (Elt F)) ]

abbrev s3 : List (HloOp τ sig (Elt F)) :=
  [ nullary main_c_6 (constantI S_ 32 0#32),
    unary main_c_6 main_v31 (broadcastInDim S850000 ![] bcast_S_S850000 : (⟨S_, .i32⟩ : BufTy).Contents (Elt F) → (⟨S850000, .i32⟩ : BufTy).Contents (Elt F)),
    binary main_v3 main_v31 main_v32 (cmpi .slt : (⟨S850000, .i32⟩ : BufTy).Contents (Elt F) → (⟨S850000, .i32⟩ : BufTy).Contents (Elt F) → (⟨S850000, .i1⟩ : BufTy).Contents (Elt F)),
    nullary main_c_7 (constantI S_ 32 50000#32),
    unary main_c_7 main_v33 (broadcastInDim S850000 ![] bcast_S_S850000 : (⟨S_, .i32⟩ : BufTy).Contents (Elt F) → (⟨S850000, .i32⟩ : BufTy).Contents (Elt F)),
    binary main_v3 main_v33 main_v34 (addi : (⟨S850000, .i32⟩ : BufTy).Contents (Elt F) → (⟨S850000, .i32⟩ : BufTy).Contents (Elt F) → (⟨S850000, .i32⟩ : BufTy).Contents (Elt F)),
    ternary main_v32 main_v34 main_v3 main_v35 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v35 main_v36 (broadcastInDim S850000x1 ![0] bcast_S850000_S850000x1_0 : (⟨S850000, .i32⟩ : BufTy).Contents (Elt F) → (⟨S850000x1, .i32⟩ : BufTy).Contents (Elt F)),
    binary main_v15 main_v36 main_v37 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    unary main_v30 main_v38 (broadcastInDim S850000x1 ![0] bcast_S850000_S850000x1_0 : (⟨S850000, .f32⟩ : BufTy).Contents (Elt F) → (⟨S850000x1, .f32⟩ : BufTy).Contents (Elt F)),
    unary main_v38 main_v39 (broadcastInDim S850000x128 ![0, 1] bcast_S850000x1_S850000x128_0_1 : (⟨S850000x1, .f32⟩ : BufTy).Contents (Elt F) → (⟨S850000x128, .f32⟩ : BufTy).Contents (Elt F)),
    binary main_v37 main_v39 main_v40 (mulf : (⟨S850000x128, .f32⟩ : BufTy).Contents (Elt F) → (⟨S850000x128, .f32⟩ : BufTy).Contents (Elt F) → (⟨S850000x128, .f32⟩ : BufTy).Contents (Elt F)),
    nullary main_cst_8 (constant S_ .f32 0x00000000#32),
    unary main_cst_8 main_v41 (broadcastInDim S50000x128 ![] bcast_S_S50000x128 : (⟨S_, .f32⟩ : BufTy).Contents (Elt F) → (⟨S50000x128, .f32⟩ : BufTy).Contents (Elt F)),
    unary main_v6 main_v42 (broadcastInDim S850000x1 ![0] bcast_S850000_S850000x1_0 : (⟨S850000, .i32⟩ : BufTy).Contents (Elt F) → (⟨S850000x1, .i32⟩ : BufTy).Contents (Elt F)),
    ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)) ]

abbrev s4 : List (HloOp τ sig (Elt F)) :=
  [ unary main_arg3 main_v44 (broadcastInDim S1x128 ![1] bcast_S128_S1x128_1 : (⟨S128, .f32⟩ : BufTy).Contents (Elt F) → (⟨S1x128, .f32⟩ : BufTy).Contents (Elt F)),
    unary main_v44 main_v45 (broadcastInDim S50000x128 ![0, 1] bcast_S1x128_S50000x128_0_1 : (⟨S1x128, .f32⟩ : BufTy).Contents (Elt F) → (⟨S50000x128, .f32⟩ : BufTy).Contents (Elt F)),
    binary main_v43 main_v45 main_v46 (addf : (⟨S50000x128, .f32⟩ : BufTy).Contents (Elt F) → (⟨S50000x128, .f32⟩ : BufTy).Contents (Elt F) → (⟨S50000x128, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S50000x128, .f32⟩) main_call1_v0) (broadcastInDim S50000x128 ![] bcast_S_S50000x128),
    TRef.binary (TRef.of (T := ⟨S50000x128, .f32⟩) main_v46) (TRef.of (T := ⟨S50000x128, .f32⟩) main_call1_v0) (TRef.of (T := ⟨S50000x128, .f32⟩) main_v47) maximumf ]

abbrev s5 : List (HloOp τ sig (Elt F)) :=
  [ binary main_v47 main_arg4 main_v48 ((fun l r => Host.dotGeneral dot_S50000x128_S128x40_S50000x40_1_0_0_1_n_n none l r) : (⟨S50000x128, .f32⟩ : BufTy).Contents (Elt F) → (⟨S128x40, .f32⟩ : BufTy).Contents (Elt F) → (⟨S50000x40, .f32⟩ : BufTy).Contents (Elt F)) ]

abbrev s6 : List (HloOp τ sig (Elt F)) :=
  [ nullary main_c_9 (constantI S_ 32 0#32),
    unary main_c_9 main_v49 (broadcastInDim S850000 ![] bcast_S_S850000 : (⟨S_, .i32⟩ : BufTy).Contents (Elt F) → (⟨S850000, .i32⟩ : BufTy).Contents (Elt F)),
    binary main_v3 main_v49 main_v50 (cmpi .slt : (⟨S850000, .i32⟩ : BufTy).Contents (Elt F) → (⟨S850000, .i32⟩ : BufTy).Contents (Elt F) → (⟨S850000, .i1⟩ : BufTy).Contents (Elt F)),
    nullary main_c_10 (constantI S_ 32 50000#32),
    unary main_c_10 main_v51 (broadcastInDim S850000 ![] bcast_S_S850000 : (⟨S_, .i32⟩ : BufTy).Contents (Elt F) → (⟨S850000, .i32⟩ : BufTy).Contents (Elt F)),
    binary main_v3 main_v51 main_v52 (addi : (⟨S850000, .i32⟩ : BufTy).Contents (Elt F) → (⟨S850000, .i32⟩ : BufTy).Contents (Elt F) → (⟨S850000, .i32⟩ : BufTy).Contents (Elt F)),
    ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v53 main_v54 (broadcastInDim S850000x1 ![0] bcast_S850000_S850000x1_0 : (⟨S850000, .i32⟩ : BufTy).Contents (Elt F) → (⟨S850000x1, .i32⟩ : BufTy).Contents (Elt F)),
    binary main_v14 main_v54 main_v55 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    nullary main_c_11 (constantI S_ 32 0#32),
    unary main_c_11 main_v56 (broadcastInDim S850000 ![] bcast_S_S850000 : (⟨S_, .i32⟩ : BufTy).Contents (Elt F) → (⟨S850000, .i32⟩ : BufTy).Contents (Elt F)),
    binary main_v6 main_v56 main_v57 (cmpi .slt : (⟨S850000, .i32⟩ : BufTy).Contents (Elt F) → (⟨S850000, .i32⟩ : BufTy).Contents (Elt F) → (⟨S850000, .i1⟩ : BufTy).Contents (Elt F)),
    nullary main_c_12 (constantI S_ 32 50000#32),
    unary main_c_12 main_v58 (broadcastInDim S850000 ![] bcast_S_S850000 : (⟨S_, .i32⟩ : BufTy).Contents (Elt F) → (⟨S850000, .i32⟩ : BufTy).Contents (Elt F)),
    binary main_v6 main_v58 main_v59 (addi : (⟨S850000, .i32⟩ : BufTy).Contents (Elt F) → (⟨S850000, .i32⟩ : BufTy).Contents (Elt F) → (⟨S850000, .i32⟩ : BufTy).Contents (Elt F)),
    ternary main_v57 main_v59 main_v6 main_v60 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v60 main_v61 (broadcastInDim S850000x1 ![0] bcast_S850000_S850000x1_0 : (⟨S850000, .i32⟩ : BufTy).Contents (Elt F) → (⟨S850000x1, .i32⟩ : BufTy).Contents (Elt F)),
    binary main_v14 main_v61 main_v62 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    binary main_v55 main_v62 main_v63 (mulf : (⟨S850000, .f32⟩ : BufTy).Contents (Elt F) → (⟨S850000, .f32⟩ : BufTy).Contents (Elt F) → (⟨S850000, .f32⟩ : BufTy).Contents (Elt F)) ]

abbrev s7 : List (HloOp τ sig (Elt F)) :=
  [ nullary main_c_13 (constantI S_ 32 0#32),
    unary main_c_13 main_v64 (broadcastInDim S850000 ![] bcast_S_S850000 : (⟨S_, .i32⟩ : BufTy).Contents (Elt F) → (⟨S850000, .i32⟩ : BufTy).Contents (Elt F)),
    binary main_v3 main_v64 main_v65 (cmpi .slt : (⟨S850000, .i32⟩ : BufTy).Contents (Elt F) → (⟨S850000, .i32⟩ : BufTy).Contents (Elt F) → (⟨S850000, .i1⟩ : BufTy).Contents (Elt F)),
    nullary main_c_14 (constantI S_ 32 50000#32),
    unary main_c_14 main_v66 (broadcastInDim S850000 ![] bcast_S_S850000 : (⟨S_, .i32⟩ : BufTy).Contents (Elt F) → (⟨S850000, .i32⟩ : BufTy).Contents (Elt F)),
    binary main_v3 main_v66 main_v67 (addi : (⟨S850000, .i32⟩ : BufTy).Contents (Elt F) → (⟨S850000, .i32⟩ : BufTy).Contents (Elt F) → (⟨S850000, .i32⟩ : BufTy).Contents (Elt F)),
    ternary main_v65 main_v67 main_v3 main_v68 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    unary main_v68 main_v69 (broadcastInDim S850000x1 ![0] bcast_S850000_S850000x1_0 : (⟨S850000, .i32⟩ : BufTy).Contents (Elt F) → (⟨S850000x1, .i32⟩ : BufTy).Contents (Elt F)),
    binary main_v48 main_v69 main_v70 ((fun x i => Host.gather gather_S50000x40_S850000x1_S850000x40_1_0_n_n_0_1_140 x i) : (⟨S50000x40, .f32⟩ : BufTy).Contents (Elt F) → (⟨S850000x1, .i32⟩ : BufTy).Contents (Elt F) → (⟨S850000x40, .f32⟩ : BufTy).Contents (Elt F)),
    unary main_v63 main_v71 (broadcastInDim S850000x1 ![0] bcast_S850000_S850000x1_0 : (⟨S850000, .f32⟩ : BufTy).Contents (Elt F) → (⟨S850000x1, .f32⟩ : BufTy).Contents (Elt F)),
    unary main_v71 main_v72 (broadcastInDim S850000x40 ![0, 1] bcast_S850000x1_S850000x40_0_1 : (⟨S850000x1, .f32⟩ : BufTy).Contents (Elt F) → (⟨S850000x40, .f32⟩ : BufTy).Contents (Elt F)),
    binary main_v70 main_v72 main_v73 (mulf : (⟨S850000x40, .f32⟩ : BufTy).Contents (Elt F) → (⟨S850000x40, .f32⟩ : BufTy).Contents (Elt F) → (⟨S850000x40, .f32⟩ : BufTy).Contents (Elt F)),
    nullary main_cst_15 (constant S_ .f32 0x00000000#32),
    unary main_cst_15 main_v74 (broadcastInDim S50000x40 ![] bcast_S_S50000x40 : (⟨S_, .f32⟩ : BufTy).Contents (Elt F) → (⟨S50000x40, .f32⟩ : BufTy).Contents (Elt F)),
    unary main_v6 main_v75 (broadcastInDim S850000x1 ![0] bcast_S850000_S850000x1_0 : (⟨S850000, .i32⟩ : BufTy).Contents (Elt F) → (⟨S850000x1, .i32⟩ : BufTy).Contents (Elt F)),
    ternary main_v74 main_v75 main_v73 main_v76 ((fun x i u => Host.scatterAdd scatter_S50000x40_S850000x1_S850000x40_1_0_0_1 x i u) : (⟨S50000x40, .f32⟩ : BufTy).Contents (Elt F) → (⟨S850000x1, .i32⟩ : BufTy).Contents (Elt F) → (⟨S850000x40, .f32⟩ : BufTy).Contents (Elt F) → (⟨S50000x40, .f32⟩ : BufTy).Contents (Elt F)) ]

abbrev s8 : List (HloOp τ sig (Elt F)) :=
  [ unary main_arg5 main_v77 (broadcastInDim S1x40 ![1] bcast_S40_S1x40_1 : (⟨S40, .f32⟩ : BufTy).Contents (Elt F) → (⟨S1x40, .f32⟩ : BufTy).Contents (Elt F)),
    unary main_v77 main_v78 (broadcastInDim S50000x40 ![0, 1] bcast_S1x40_S50000x40_0_1 : (⟨S1x40, .f32⟩ : BufTy).Contents (Elt F) → (⟨S50000x40, .f32⟩ : BufTy).Contents (Elt F)),
    binary main_v76 main_v78 main_v79 (addf : (⟨S50000x40, .f32⟩ : BufTy).Contents (Elt F) → (⟨S50000x40, .f32⟩ : BufTy).Contents (Elt F) → (⟨S50000x40, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S50000x40, .f32⟩) main_call2_v0) (broadcastInDim S50000x40 ![] bcast_S_S50000x40),
    TRef.binary (TRef.of (T := ⟨S50000x40, .f32⟩) main_v79) (TRef.of (T := ⟨S50000x40, .f32⟩) main_call2_v0) (TRef.of (T := ⟨S50000x40, .f32⟩) main_v80) maximumf ]

abbrev s9 : List (HloOp τ sig (Elt F)) :=
  [ TRef.nullary (TRef.of (T := ⟨S_, .f32⟩) main_call3_cst) (constant S_ .f32 0xFF800000#32),
    TRef.binary (TRef.of (T := ⟨S50000x40, .f32⟩) main_v80) (TRef.of (T := ⟨S_, .f32⟩) main_call3_cst) (TRef.of (T := ⟨S50000, .f32⟩) main_call3_v0) (fun x v => Host.reduce FloatOps.maximumf x v reducesTo_S50000x40_S50000_d1 h_S_),
    TRef.nullary (TRef.of (T := ⟨S_, .f32⟩) main_call3_cst_0) (constant S_ .f32 0xFF800000#32),
    TRef.unary (TRef.of (T := ⟨S_, .f32⟩) main_call3_cst_0) (TRef.of (T := ⟨S50000, .f32⟩) main_call3_v1) (broadcastInDim S50000 ![] bcast_S_S50000),
    TRef.binary (TRef.of (T := ⟨S50000, .f32⟩) main_call3_v1) (TRef.of (T := ⟨S50000, .f32⟩) main_call3_v0) (TRef.of (T := ⟨S50000, .f32⟩) main_call3_v2) maximumf,
    TRef.unary (TRef.of (T := ⟨S50000, .f32⟩) main_call3_v2) (TRef.of (T := ⟨S50000x1, .f32⟩) main_call3_v3) (broadcastInDim S50000x1 ![0] bcast_S50000_S50000x1_0),
    TRef.unary (TRef.of (T := ⟨S50000x1, .f32⟩) main_call3_v3) (TRef.of (T := ⟨S50000x40, .f32⟩) main_call3_v4) (broadcastInDim S50000x40 ![0, 1] bcast_S50000x1_S50000x40_0_1),
    TRef.binary (TRef.of (T := ⟨S50000x40, .f32⟩) main_v80) (TRef.of (T := ⟨S50000x40, .f32⟩) main_call3_v4) (TRef.of (T := ⟨S50000x40, .f32⟩) main_call3_v5) subf,
    TRef.unary (TRef.of (T := ⟨S50000x40, .f32⟩) main_call3_v5) (TRef.of (T := ⟨S50000x40, .f32⟩) main_call3_v6) Host.exp,
    TRef.nullary (TRef.of (T := ⟨S_, .f32⟩) main_call3_cst_1) (constant S_ .f32 0x00000000#32),
    TRef.binary (TRef.of (T := ⟨S50000x40, .f32⟩) main_call3_v6) (TRef.of (T := ⟨S_, .f32⟩) main_call3_cst_1) (TRef.of (T := ⟨S50000, .f32⟩) main_call3_v7) (fun x v => Host.reduceAdd x v reducesTo_S50000x40_S50000_d1 h_S_),
    TRef.unary (TRef.of (T := ⟨S50000, .f32⟩) main_call3_v7) (TRef.of (T := ⟨S50000x1, .f32⟩) main_call3_v8) (broadcastInDim S50000x1 ![0] bcast_S50000_S50000x1_0),
    TRef.unary (TRef.of (T := ⟨S50000x1, .f32⟩) main_call3_v8) (TRef.of (T := ⟨S50000x1, .f32⟩) main_call3_v9) Host.log,
    TRef.unary (TRef.of (T := ⟨S50000x1, .f32⟩) main_call3_v9) (TRef.of (T := ⟨S50000x40, .f32⟩) main_call3_v10) (broadcastInDim S50000x40 ![0, 1] bcast_S50000x1_S50000x40_0_1),
    TRef.binary (TRef.of (T := ⟨S50000x40, .f32⟩) main_call3_v5) (TRef.of (T := ⟨S50000x40, .f32⟩) main_call3_v10) (TRef.of (T := ⟨S50000x40, .f32⟩) main_v81) subf ]

/-- The ten pieces in order are the whole line. -/
theorem ops_split : (ops : List (HloOp τ sig (Elt F))) = s0 ++ (s1 ++ (s2 ++ (s3 ++ (s4 ++ (s5 ++ (s6 ++ (s7 ++ (s8 ++ s9)))))))) := rfl

/-- Running two lines one after the other is running their concatenation. -/
theorem after_append (l₁ l₂ : List (HloOp τ sig (Elt F))) (W : Valuation τ sig (Elt F)) : after (l₁ ++ l₂) W = after l₂ (after l₁ W) := by
  induction l₁ generalizing W with
  | nil => rfl
  | cons o l ih => exact ih _

variable (m : (ℓ : Loc nD τ sig) → Buf (Elt F) ℓ)

/-! ## The buffers' contents after each piece -/

def R0 (c : Dev nD) : Valuation τ sig (Elt F) := launchContents m c
def R1 (c : Dev nD) : Valuation τ sig (Elt F) := after s0 (R0 m c)
def R2 (c : Dev nD) : Valuation τ sig (Elt F) := after s1 (R1 m c)
def R3 (c : Dev nD) : Valuation τ sig (Elt F) := after s2 (R2 m c)
def R4 (c : Dev nD) : Valuation τ sig (Elt F) := after s3 (R3 m c)
def R5 (c : Dev nD) : Valuation τ sig (Elt F) := after s4 (R4 m c)
def R6 (c : Dev nD) : Valuation τ sig (Elt F) := after s5 (R5 m c)
def R7 (c : Dev nD) : Valuation τ sig (Elt F) := after s6 (R6 m c)
def R8 (c : Dev nD) : Valuation τ sig (Elt F) := after s7 (R7 m c)
def R9 (c : Dev nD) : Valuation τ sig (Elt F) := after s8 (R8 m c)
def R10 (c : Dev nD) : Valuation τ sig (Elt F) := after s9 (R9 m c)

theorem after_ops (c : Dev nD) : after ops (launchContents m c) = R10 m c := by
  rw [ops_split]
  simp only [after_append]
  rfl

/-! ### After the first piece: the edge list with its self-loops, the inverse square-root degrees -/

theorem R1_src (c : Dev nD) : R1 m c (Proc.devRef .tc main_v3) = Stage.srcOf (m ((c.tc : Thread nD τ).loc main_arg1)) := by
  show after s0 (launchContents m c) (Proc.devRef .tc main_v3) = _
  after_results
  rfl
theorem R1_dst (c : Dev nD) : R1 m c (Proc.devRef .tc main_v6) = Stage.dstOf (m ((c.tc : Thread nD τ).loc main_arg1)) := by
  show after s0 (launchContents m c) (Proc.devRef .tc main_v6) = _
  after_results
  rfl
set_option maxHeartbeats 2000000 in
theorem R1_dinv (c : Dev nD) : R1 m c (Proc.devRef .tc main_v14) = Stage.degInv (m ((c.tc : Thread nD τ).loc main_arg1)) := by
  show after s0 (launchContents m c) (Proc.devRef .tc main_v14) = _
  after_results_simp
  rfl
theorem R1_arg0 (c : Dev nD) : R1 m c (Proc.devRef .tc main_arg0) = (m ((c.tc : Thread nD τ).loc main_arg0)) := by
  show after s0 (launchContents m c) (Proc.devRef .tc main_arg0) = _
  after_results
theorem R1_arg2 (c : Dev nD) : R1 m c (Proc.devRef .tc main_arg2) = (m ((c.tc : Thread nD τ).loc main_arg2)) := by
  show after s0 (launchContents m c) (Proc.devRef .tc main_arg2) = _
  after_results

/-! ### The first projection -/

theorem R2_h (c : Dev nD) : R2 m c (Proc.devRef .tc main_v15) = Stage.dot128 (m ((c.tc : Thread nD τ).loc main_arg0)) (m ((c.tc : Thread nD τ).loc main_arg2)) := by
  show after s1 (R1 m c) (Proc.devRef .tc main_v15) = _
  after_results
  rw [R1_arg0 m c, R1_arg2 m c]
  rfl
theorem R2_src (c : Dev nD) : R2 m c (Proc.devRef .tc main_v3) = R1 m c (Proc.devRef .tc main_v3) := by
  show after s1 (R1 m c) (Proc.devRef .tc main_v3) = _
  after_results
theorem R2_dst (c : Dev nD) : R2 m c (Proc.devRef .tc main_v6) = R1 m c (Proc.devRef .tc main_v6) := by
  show after s1 (R1 m c) (Proc.devRef .tc main_v6) = _
  after_results
theorem R2_dinv (c : Dev nD) : R2 m c (Proc.devRef .tc main_v14) = R1 m c (Proc.devRef .tc main_v14) := by
  show after s1 (R1 m c) (Proc.devRef .tc main_v14) = _
  after_results

/-! ### The edge weights -/

set_option maxHeartbeats 2000000 in
theorem R3_norm (c : Dev nD) : R3 m c (Proc.devRef .tc main_v30) = Stage.normOf (m ((c.tc : Thread nD τ).loc main_arg1)) := by
  show after s2 (R2 m c) (Proc.devRef .tc main_v30) = _
  after_results_simp
  rw [R2_src m c, R2_dst m c, R2_dinv m c, R1_src m c, R1_dst m c, R1_dinv m c]
  rfl
theorem R3_src (c : Dev nD) : R3 m c (Proc.devRef .tc main_v3) = R2 m c (Proc.devRef .tc main_v3) := by
  show after s2 (R2 m c) (Proc.devRef .tc main_v3) = _
  after_results
theorem R3_dst (c : Dev nD) : R3 m c (Proc.devRef .tc main_v6) = R2 m c (Proc.devRef .tc main_v6) := by
  show after s2 (R2 m c) (Proc.devRef .tc main_v6) = _
  after_results
theorem R3_dinv (c : Dev nD) : R3 m c (Proc.devRef .tc main_v14) = R2 m c (Proc.devRef .tc main_v14) := by
  show after s2 (R2 m c) (Proc.devRef .tc main_v14) = _
  after_results
theorem R3_h (c : Dev nD) : R3 m c (Proc.devRef .tc main_v15) = R2 m c (Proc.devRef .tc main_v15) := by
  show after s2 (R2 m c) (Proc.devRef .tc main_v15) = _
  after_results

/-! ### The first round of message passing -/

set_option maxHeartbeats 2000000 in
theorem R4_agg (c : Dev nD) : R4 m c (Proc.devRef .tc main_v43) = Stage.agg128 (Stage.dot128 (m ((c.tc : Thread nD τ).loc main_arg0)) (m ((c.tc : Thread nD τ).loc main_arg2))) (m ((c.tc : Thread nD τ).loc main_arg1)) := by
  show after s3 (R3 m c) (Proc.devRef .tc main_v43) = _
  after_results_simp
  rw [R3_norm m c, R3_h m c, R2_h m c, R3_src m c, R2_src m c, R1_src m c, R3_dst m c, R2_dst m c, R1_dst m c]
  rfl
theorem R4_src (c : Dev nD) : R4 m c (Proc.devRef .tc main_v3) = R3 m c (Proc.devRef .tc main_v3) := by
  show after s3 (R3 m c) (Proc.devRef .tc main_v3) = _
  after_results
theorem R4_dst (c : Dev nD) : R4 m c (Proc.devRef .tc main_v6) = R3 m c (Proc.devRef .tc main_v6) := by
  show after s3 (R3 m c) (Proc.devRef .tc main_v6) = _
  after_results
theorem R4_dinv (c : Dev nD) : R4 m c (Proc.devRef .tc main_v14) = R3 m c (Proc.devRef .tc main_v14) := by
  show after s3 (R3 m c) (Proc.devRef .tc main_v14) = _
  after_results

theorem R2_src' (c : Dev nD) : R2 m c (Proc.devRef .tc main_v3) = Stage.srcOf (m ((c.tc : Thread nD τ).loc main_arg1)) := (R2_src m c).trans (R1_src m c)
theorem R2_dst' (c : Dev nD) : R2 m c (Proc.devRef .tc main_v6) = Stage.dstOf (m ((c.tc : Thread nD τ).loc main_arg1)) := (R2_dst m c).trans (R1_dst m c)
theorem R2_dinv' (c : Dev nD) : R2 m c (Proc.devRef .tc main_v14) = Stage.degInv (m ((c.tc : Thread nD τ).loc main_arg1)) := (R2_dinv m c).trans (R1_dinv m c)
theorem R3_src' (c : Dev nD) : R3 m c (Proc.devRef .tc main_v3) = Stage.srcOf (m ((c.tc : Thread nD τ).loc main_arg1)) := (R3_src m c).trans (R2_src' m c)
theorem R3_dst' (c : Dev nD) : R3 m c (Proc.devRef .tc main_v6) = Stage.dstOf (m ((c.tc : Thread nD τ).loc main_arg1)) := (R3_dst m c).trans (R2_dst' m c)
theorem R3_dinv' (c : Dev nD) : R3 m c (Proc.devRef .tc main_v14) = Stage.degInv (m ((c.tc : Thread nD τ).loc main_arg1)) := (R3_dinv m c).trans (R2_dinv' m c)
theorem R4_src' (c : Dev nD) : R4 m c (Proc.devRef .tc main_v3) = Stage.srcOf (m ((c.tc : Thread nD τ).loc main_arg1)) := (R4_src m c).trans (R3_src' m c)
theorem R4_dst' (c : Dev nD) : R4 m c (Proc.devRef .tc main_v6) = Stage.dstOf (m ((c.tc : Thread nD τ).loc main_arg1)) := (R4_dst m c).trans (R3_dst' m c)
theorem R4_dinv' (c : Dev nD) : R4 m c (Proc.devRef .tc main_v14) = Stage.degInv (m ((c.tc : Thread nD τ).loc main_arg1)) := (R4_dinv m c).trans (R3_dinv' m c)

/-! ### The first bias-and-clip -/

theorem R4_arg3 (c : Dev nD) : R4 m c (Proc.devRef .tc main_arg3) = (m ((c.tc : Thread nD τ).loc main_arg3)) := by
  show after s3 (after s2 (after s1 (after s0 (launchContents m c)))) (Proc.devRef .tc main_arg3) = _
  after_results_simp <;> rfl
theorem R5_relu (c : Dev nD) : R5 m c (Proc.devRef .tc main_v47) = Stage.biasRelu128 (Stage.agg128 (Stage.dot128 (m ((c.tc : Thread nD τ).loc main_arg0)) (m ((c.tc : Thread nD τ).loc main_arg2))) (m ((c.tc : Thread nD τ).loc main_arg1))) (m ((c.tc : Thread nD τ).loc main_arg3)) := by
  show after s4 (R4 m c) (Proc.devRef .tc main_v47) = _
  after_results_simp
  rw [R4_agg m c, R4_arg3 m c]
  rfl
theorem R5_src (c : Dev nD) : R5 m c (Proc.devRef .tc main_v3) = R4 m c (Proc.devRef .tc main_v3) := by
  show after s4 (R4 m c) (Proc.devRef .tc main_v3) = _
  after_results
theorem R5_dst (c : Dev nD) : R5 m c (Proc.devRef .tc main_v6) = R4 m c (Proc.devRef .tc main_v6) := by
  show after s4 (R4 m c) (Proc.devRef .tc main_v6) = _
  after_results
theorem R5_dinv (c : Dev nD) : R5 m c (Proc.devRef .tc main_v14) = R4 m c (Proc.devRef .tc main_v14) := by
  show after s4 (R4 m c) (Proc.devRef .tc main_v14) = _
  after_results
theorem R5_src' (c : Dev nD) : R5 m c (Proc.devRef .tc main_v3) = Stage.srcOf (m ((c.tc : Thread nD τ).loc main_arg1)) := (R5_src m c).trans (R4_src' m c)
theorem R5_dst' (c : Dev nD) : R5 m c (Proc.devRef .tc main_v6) = Stage.dstOf (m ((c.tc : Thread nD τ).loc main_arg1)) := (R5_dst m c).trans (R4_dst' m c)
theorem R5_dinv' (c : Dev nD) : R5 m c (Proc.devRef .tc main_v14) = Stage.degInv (m ((c.tc : Thread nD τ).loc main_arg1)) := (R5_dinv m c).trans (R4_dinv' m c)

/-! ### The second projection -/

theorem R5_arg4 (c : Dev nD) : R5 m c (Proc.devRef .tc main_arg4) = (m ((c.tc : Thread nD τ).loc main_arg4)) := by
  show after s4 (after s3 (after s2 (after s1 (after s0 (launchContents m c))))) (Proc.devRef .tc main_arg4) = _
  after_results_simp <;> rfl
theorem R6_h (c : Dev nD) : R6 m c (Proc.devRef .tc main_v48) = Stage.dot40 (Stage.biasRelu128 (Stage.agg128 (Stage.dot128 (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4)) := by
  show after s5 (R5 m c) (Proc.devRef .tc main_v48) = _
  after_results_simp
  rw [R5_relu m c, R5_arg4 m c]
  rfl
theorem R6_src (c : Dev nD) : R6 m c (Proc.devRef .tc main_v3) = R5 m c (Proc.devRef .tc main_v3) := by
  show after s5 (R5 m c) (Proc.devRef .tc main_v3) = _
  after_results
theorem R6_dst (c : Dev nD) : R6 m c (Proc.devRef .tc main_v6) = R5 m c (Proc.devRef .tc main_v6) := by
  show after s5 (R5 m c) (Proc.devRef .tc main_v6) = _
  after_results
theorem R6_dinv (c : Dev nD) : R6 m c (Proc.devRef .tc main_v14) = R5 m c (Proc.devRef .tc main_v14) := by
  show after s5 (R5 m c) (Proc.devRef .tc main_v14) = _
  after_results
theorem R6_src' (c : Dev nD) : R6 m c (Proc.devRef .tc main_v3) = Stage.srcOf (m ((c.tc : Thread nD τ).loc main_arg1)) := (R6_src m c).trans (R5_src' m c)
theorem R6_dst' (c : Dev nD) : R6 m c (Proc.devRef .tc main_v6) = Stage.dstOf (m ((c.tc : Thread nD τ).loc main_arg1)) := (R6_dst m c).trans (R5_dst' m c)
theorem R6_dinv' (c : Dev nD) : R6 m c (Proc.devRef .tc main_v14) = Stage.degInv (m ((c.tc : Thread nD τ).loc main_arg1)) := (R6_dinv m c).trans (R5_dinv' m c)

/-! ### The edge weights again -/

set_option maxHeartbeats 2000000 in
theorem R7_norm (c : Dev nD) : R7 m c (Proc.devRef .tc main_v63) = Stage.normOf (m ((c.tc : Thread nD τ).loc main_arg1)) := by
  show after s6 (R6 m c) (Proc.devRef .tc main_v63) = _
  after_results_simp
  rw [R6_src' m c, R6_dst' m c, R6_dinv' m c]
  rfl
theorem R7_src (c : Dev nD) : R7 m c (Proc.devRef .tc main_v3) = R6 m c (Proc.devRef .tc main_v3) := by
  show after s6 (R6 m c) (Proc.devRef .tc main_v3) = _
  after_results
theorem R7_dst (c : Dev nD) : R7 m c (Proc.devRef .tc main_v6) = R6 m c (Proc.devRef .tc main_v6) := by
  show after s6 (R6 m c) (Proc.devRef .tc main_v6) = _
  after_results
theorem R7_h (c : Dev nD) : R7 m c (Proc.devRef .tc main_v48) = R6 m c (Proc.devRef .tc main_v48) := by
  show after s6 (R6 m c) (Proc.devRef .tc main_v48) = _
  after_results
theorem R7_src' (c : Dev nD) : R7 m c (Proc.devRef .tc main_v3) = Stage.srcOf (m ((c.tc : Thread nD τ).loc main_arg1)) := (R7_src m c).trans (R6_src' m c)
theorem R7_dst' (c : Dev nD) : R7 m c (Proc.devRef .tc main_v6) = Stage.dstOf (m ((c.tc : Thread nD τ).loc main_arg1)) := (R7_dst m c).trans (R6_dst' m c)

/-! ### The second round of message passing -/

set_option maxHeartbeats 2000000 in
theorem R8_agg (c : Dev nD) : R8 m c (Proc.devRef .tc main_v76) = Stage.agg40 (Stage.dot40 (Stage.biasRelu128 (Stage.agg128 (Stage.dot128 (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4))) (m ((c.tc : Thread nD τ).loc main_arg1)) := by
  show after s7 (R7 m c) (Proc.devRef .tc main_v76) = _
  after_results_simp
  rw [R7_norm m c, R7_h m c, R6_h m c, R7_src' m c, R7_dst' m c]
  rfl

/-! ### The second bias-and-clip, and the log-softmax -/

theorem R8_arg5 (c : Dev nD) : R8 m c (Proc.devRef .tc main_arg5) = (m ((c.tc : Thread nD τ).loc main_arg5)) := by
  show after s7 (after s6 (after s5 (after s4 (after s3 (after s2 (after s1 (after s0 (launchContents m c)))))))) (Proc.devRef .tc main_arg5) = _
  after_results_simp <;> rfl
theorem R9_relu (c : Dev nD) : R9 m c (Proc.devRef .tc main_v80) = Stage.biasRelu40 (Stage.agg40 (Stage.dot40 (Stage.biasRelu128 (Stage.agg128 (Stage.dot128 (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4))) (m ((c.tc : Thread nD τ).loc main_arg1))) (m ((c.tc : Thread nD τ).loc main_arg5)) := by
  show after s8 (R8 m c) (Proc.devRef .tc main_v80) = _
  after_results_simp
  rw [R8_agg m c, R8_arg5 m c]
  rfl

/-- Contents carried to a buffer's own type and back are the contents. -/
theorem ofBuf_toBuf {T : BufTy} (x : TRef sig T) (v : T.Contents (Elt F)) : x.ofBuf (x.toBuf v) = v := by
  obtain ⟨r, h, h₁, h₂⟩ := x
  subst h
  rfl

set_option maxHeartbeats 2000000 in
/-- The last piece, from any contents: the log-softmax of what it finds in the clipped scores' buffer (both still
    carried along the two buffers' types). -/
theorem lsm_of (W : Valuation τ sig (Elt F)) : after s9 W (Proc.devRef .tc main_v81)
    = (TRef.of (T := ⟨S50000x40, .f32⟩) main_v81).toBuf (Stage.logSoftmax ((TRef.of (T := ⟨S50000x40, .f32⟩) main_v80).ofBuf (W (Proc.devRef .tc main_v80)))) := by
  after_results_simp
  simp only [ofBuf_toBuf]
  rfl

theorem toBuf_v81 (z : (⟨S50000x40, .f32⟩ : BufTy).Contents (Elt F)) : (TRef.of (T := ⟨S50000x40, .f32⟩) main_v81).toBuf z = z := rfl
theorem ofBuf_v80 (W : Valuation τ sig (Elt F)) : (TRef.of (T := ⟨S50000x40, .f32⟩) main_v80).ofBuf (W (Proc.devRef .tc main_v80)) = W (Proc.devRef .tc main_v80) := rfl

theorem R10_out (c : Dev nD) : R10 m c (Proc.devRef .tc main_v81) = Stage.logSoftmax (Stage.biasRelu40 (Stage.agg40 (Stage.dot40 (Stage.biasRelu128 (Stage.agg128 (Stage.dot128 (m ((c.tc : Thread nD τ).loc main_arg0)) (m ((c.tc : Thread nD τ).loc main_arg2))) (m ((c.tc : Thread nD τ).loc main_arg1))) (m ((c.tc : Thread nD τ).loc main_arg3))) (m ((c.tc : Thread nD τ).loc main_arg4))) (m ((c.tc : Thread nD τ).loc main_arg1))) (m ((c.tc : Thread nD τ).loc main_arg5))) := by
  show after s9 (R9 m c) (Proc.devRef .tc main_v81) = _
  rw [lsm_of (R9 m c), toBuf_v81, ofBuf_v80, R9_relu m c]

/-- What the result buffer holds after the whole line: the network's function of the six arguments. -/
theorem result_eq (c : Dev nD) : after ops (launchContents m c) (Proc.devRef .tc main_v81)
    = Stage.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  rw [after_ops m c, R10_out m c]
  rfl

/-! ## The run -/

set_option maxHeartbeats 8000000 in
/-- On every device, from any memory with zero counters: every weakly fair execution of the reference's @main terminates
    with the result buffer at the network's function of the arguments, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v81) = Stage.whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v81).trans (result_eq m c),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl)⟩)
    (run_seq scopedRefs_eq scopedSems_eq defs main (fun _ => ops) main_eq (fun _ => ops_sub) m ρ)

end Cert.ReferenceIdeal.Hand

end
-- ==== Proof.lean ====
/-
  A two-layer graph convolution network with a log-softmax head: the kernel program against its jnp reference, equal as
  extended reals. Both programs build the same edge list (the given edges followed by one self-loop per node), the same
  degrees and the same edge weights deg(src)^(-1/2) · deg(dst)^(-1/2) on the host, and both run each layer as: project
  the node features by a dense matrix, gather the projected rows along the edges, scale them by the edge weights, add
  them into their destination nodes, add the bias, clip at zero. They differ only in where the dense and row-wise steps
  run: the kernel program does the two projections, the two bias-and-clip steps and the final log-softmax in pallas
  calls over ten blocks of 5000 rows, the reference as whole-array host operations. At the ideal values a row block of a
  matrix product is the product of the row block (the bf16 truncations are the identity and the accumulator starts at
  zero), bias-and-clip is entry by entry, and the log-softmax of a row depends on that row alone, the row maximum being
  the same fold of max from minus infinity on both sides and the sum of exponentials the same finite sum. So after each
  call the array it wrote is the reference's stage function of the arrays it read (Proof/Region0 … Region3K, Region3R),
  the host operations between the calls are the reference's own (Proof/KernelValue), and both result buffers end at one
  function of the six arguments (Proof/Stages `whole`). The two sides are the same sums and folds in the same order; the
  only laws of the extended reals used are that the larger of b and a fold of max that starts from b is that fold, and
  0 + s = s (Proof/Region3R), both valid at the infinities, so the finiteness of the inputs is never used.
  The kernel program's frames are the generated ones; the reference has no kernel, and its frame is its run
  (Proof/RefRun) with the result dropped. The ideal pass rewrote nothing, so the idealization claim is trivial.
-/
import proofs.«121526_j37194416783907_1_alg».proof.Defs
import proofs.«121526_j37194416783907_1_alg».proof.Proof.Gen.Kernel
import proofs.«121526_j37194416783907_1_alg».proof.Proof.Gen.Kernel.Skeleton
import proofs.«121526_j37194416783907_1_alg».proof.Proof.Gen.Kernel.Launch
import proofs.«121526_j37194416783907_1_alg».proof.Proof.Gen.Kernel.Points
import proofs.«121526_j37194416783907_1_alg».proof.Proof.Gen.Kernel.Frame
import proofs.«121526_j37194416783907_1_alg».proof.Proof.Gen.KernelIdeal
import proofs.«121526_j37194416783907_1_alg».proof.Proof.Gen.KernelIdeal.Skeleton
import proofs.«121526_j37194416783907_1_alg».proof.Proof.Gen.KernelIdeal.Launch
import proofs.«121526_j37194416783907_1_alg».proof.Proof.Gen.KernelIdeal.Points
import proofs.«121526_j37194416783907_1_alg».proof.Proof.Gen.KernelIdeal.Frame
import proofs.«121526_j37194416783907_1_alg».proof.Proof.Gen.ReferenceIdeal
import proofs.«121526_j37194416783907_1_alg».proof.Proof.Gen.Pre_finite_inputs
import proofs.«121526_j37194416783907_1_alg».proof.Proof.KernelRun
import proofs.«121526_j37194416783907_1_alg».proof.Proof.KernelValue
import proofs.«121526_j37194416783907_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel program runs and leaves its arguments as launched: the generated frame. -/
theorem frame_k : Cert.frame_Kernel := fun m ρ _ => Cert.Kernel.Gen.frame m ρ

/-- The same for the idealized kernel program. -/
theorem frame_ki : Cert.frame_KernelIdeal := fun m ρ _ => Cert.KernelIdeal.Gen.frame m ρ

/-- The reference runs and leaves its arguments as launched: its run, the result forgotten. -/
theorem frame_ri : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the network's one function of the arguments in their
    result buffers. -/
theorem algebraic : Cert.algebraic_KernelIdeal_ReferenceIdeal := by
  intro m ρ m' ρ' _ hagree
  refine ⟨fun c => Cert.ReferenceIdeal.Stage.whole (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.KernelIdeal.Hand.kernel_result m ρ c), (h c).2⟩)
      (Cert.KernelIdeal.GenP.run_result (F := Ideal) m ρ)
  · refine (θ_run Cert.ReferenceIdeal.defs _ _).mono (fun _ h c => ⟨(h c).1.trans ?_, (h c).2⟩)
      (Cert.ReferenceIdeal.Hand.run (F := Ideal) m' ρ')
    obtain ⟨e0, e1, e2, e3, e4, e5⟩ := hagree c
    rw [e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
